-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S256 .f32) (main_arg7 : FVec F S256x10 .f32) (main_arg8 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg7
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x768 .f32) (main_arg1 : IVec S2x800000 32) (main_arg2 : IVec S50000 32) (main_arg3 : FVec F S768x256 .f32) (main_arg4 : FVec F S256 .f32) (main_arg5 : FVec F S256x256 .f32) (main_arg6 : FVec F S256 .f32) (main_arg7 : FVec F S256x10 .f32) (main_arg8 : FVec F S10 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x256 .f32 := Host.absf main_arg3
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x768 : Shape := ⟨2, ![2000, 768]⟩
abbrev S2000x1 : Shape := ⟨2, ![2000, 1]⟩
abbrev S2000x256 : Shape := ⟨2, ![2000, 256]⟩
abbrev S850000x256 : Shape := ⟨2, ![850000, 256]⟩
abbrev S1x256 : Shape := ⟨2, ![1, 256]⟩
abbrev S128x256 : Shape := ⟨2, ![128, 256]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 89
  | .vmem => 15
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S50000, .i32⟩
  | .hbm, ⟨3, _⟩ => ⟨S768x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .bf16⟩
  | .hbm, ⟨41, _⟩ => ⟨S850000x256, .f32⟩
  | .hbm, ⟨42, _⟩ => ⟨S_, .f32⟩
  | .hbm, ⟨43, _⟩ => ⟨S50000x256, .f32⟩
  | .hbm, ⟨44, _⟩ => ⟨S850000x1, .i32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .bf16⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S128x256, .f32⟩
  | .hbm, ⟨71, _⟩ => ⟨S50000x1, .i32⟩
  | .hbm, ⟨72, _⟩ => ⟨S128x256, .f32⟩
  | .hbm, ⟨73, _⟩ => ⟨S_, .f32⟩
  | .hbm, ⟨74, _⟩ => ⟨S50000, .f32⟩
  | .hbm, ⟨75, _⟩ => ⟨S_, .f32⟩
  | .hbm, ⟨76, _⟩ => ⟨S128, .f32⟩
  | .hbm, ⟨77, _⟩ => ⟨S50000x1, .i32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128x1, .f32⟩
  | .hbm, ⟨83, _⟩ => ⟨S128x256, .f32⟩
  | .hbm, ⟨84, _⟩ => ⟨S128x256, .f32⟩
  | .hbm, ⟨85, _⟩ => ⟨S128x10, .f32⟩
  | .hbm, ⟨86, _⟩ => ⟨S1x10, .f32⟩
  | .hbm, ⟨87, _⟩ => ⟨S128x10, .f32⟩
  | .hbm, ⟨88, _⟩ => ⟨S128x10, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S256x256, .f32⟩
  | .local _ .vmem, ⟨11, _⟩ => ⟨S2000x1, .f32⟩
  | .local _ .vmem, ⟨12, _⟩ => ⟨S2000x1, .f32⟩
  | .local _ .vmem, ⟨13, _⟩ => ⟨S2000x256, .bf16⟩
  | .local _ .vmem, ⟨14, _⟩ => ⟨S2000x256, .bf16⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S850000x1_S850000_n_0_0_1_wf : ScatterDims.WF S50000 S850000x1 S850000 [] [0] [0] 1
  dot_S2000x768_S768x256_S2000x256_1_0_0_1_n_n_wf : DotDims.WF S2000x768 S768x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S50000 : Shape := ⟨1, ![50000]⟩
abbrev S768x256 : Shape := ⟨2, ![768, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S128x256 : Shape := ⟨2, ![128, 256]⟩
abbrev S50000x1 : Shape := ⟨2, ![50000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 145
  | .vmem => 0
  | .smem => 0
  | _ => 0

abbrev hbmTy0_0 (i : Nat) : BufTy := match i % 128 with
  | 0 => ⟨S50000x768, .f32⟩
  | 1 => ⟨S2x800000, .i32⟩
  | 2 => ⟨S50000, .i32⟩
  | 3 => ⟨S768x256, .f32⟩
  | 4 => ⟨S256, .f32⟩
  | 5 => ⟨S256x256, .f32⟩
  | 6 => ⟨S256, .f32⟩
  | 7 => ⟨S256x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S50000x256, .f32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x256, .f32⟩
  | 115 => ⟨S850000x1, .f32⟩
  | 116 => ⟨S850000x256, .f32⟩
  | 117 => ⟨S850000x256, .f32⟩
  | 118 => ⟨S_, .f32⟩
  | 119 => ⟨S50000x256, .f32⟩
  | 120 => ⟨S850000x1, .i32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S128x256, .f32⟩
  | 127 => ⟨S50000x1, .i32⟩
  | _ => ⟨S50000x768, .f32⟩

abbrev hbmTy0_1 (i : Nat) : BufTy := match i % 128 with
  | 0 => ⟨S128x256, .f32⟩
  | 1 => ⟨S_, .f32⟩
  | 2 => ⟨S50000, .f32⟩
  | 3 => ⟨S_, .f32⟩
  | 4 => ⟨S128, .f32⟩
  | 5 => ⟨S50000x1, .i32⟩
  | 6 => ⟨S128, .f32⟩
  | 7 => ⟨S_, .f32⟩
  | 8 => ⟨S128, .f32⟩
  | 9 => ⟨S128, .f32⟩
  | 10 => ⟨S128x1, .f32⟩
  | 11 => ⟨S128x256, .f32⟩
  | 12 => ⟨S128x256, .f32⟩
  | 13 => ⟨S128x10, .f32⟩
  | 14 => ⟨S1x10, .f32⟩
  | 15 => ⟨S128x10, .f32⟩
  | 16 => ⟨S128x10, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_20 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_21 : Ref sig .tc := ⟨.hbm, 129, rfl⟩
abbrev main_v91 : Ref sig .tc := ⟨.hbm, 130, rfl⟩
abbrev main_cst_22 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_23 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S50000x768_S768x256_S50000x256_1_0_0_1_n_n_wf : DotDims.WF S50000x768 S768x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []

variable [Facts₀]

def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.KernelRun.lean ====
/-
  The idealized kernel's run with its result buffer read.

  @main is seven segments: three stretches of host operations, the first matrix-product region, a stretch, the second
  region, and the closing stretch. The generated frame module names the buffer contents at every segment boundary
  (`Gen.W0 … Gen.W7`) and proves each segment's triple; the launch over those segments ends with every unscoped buffer at
  the last boundary's contents `Gen.W7`. Reading that final state at the result buffer — as well as at the argument
  buffers, which the frame claim reads — gives the run below: the result is `Gen.W7` at `main_v63`, the arguments are
  unchanged.
-/
import proofs.«137476_j56418690400424_2_alg».proof.Proof.Gen.KernelIdeal.Frame

set_option maxRecDepth 16384

noncomputable section

namespace Cert.KernelIdeal.RunRead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunRead

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Payload.lean ====
/-
  The two kernel bodies read at one entry of their output block, on the extended reals.

  Both bodies are a matrix product into a zero accumulator whose result row `p` is then scaled by the entry `(p, 0)`
  of a one-column block. In the first the left operand is the loaded block itself; in the second it is the loaded
  block plus a bias row, rectified (its maximum with zero). Changes of float format are the identity on the extended
  reals, a shape cast to the same shape is the identity, and a column `[M, 1]` or a row `[1, K]` broadcast to a matrix
  is read at the column's row, the row's column.
-/
import proofs.«137476_j56418690400424_2_alg».proof.Proof.Gen.KernelIdeal.Skeleton
import proofs.«137476_j56418690400424_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.GemmScale

open Idealize.ShloMosaic Idealize.ShloMosaic.ValueIdx

variable {M K N : Nat}

/-- A column `[M, 1]` broadcast to `[M, N]` reads, at `(p, c)`, the column's entry at row `p`. -/
theorem col_bcast_apply {α : Type} (hM : M ≠ 1) (v : (⟨2, ![M, 1]⟩ : Shape).Idx → α)
    (h : (⟨2, ![M, 1]⟩ : Shape).Broadcasts ⟨2, ![M, N]⟩) (p : Fin M) (c : Fin N) :
    broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    rw [if_neg hM]
  | ⟨1, _⟩ => rfl

/-- A product into a zero accumulator, each row scaled by a column: entry `(p, c)`. -/
theorem scaled_product_apply (d : DotDims ⟨2, ![M, K]⟩ ⟨2, ![K, N]⟩ ⟨2, ![M, N]⟩) (hd : Cert.PlainDot.IsPlain d)
    (hM : M ≠ 1) {φ₁ φ₂ : FTy} (x : FVec Ideal ⟨2, ![M, K]⟩ φ₁) (w : FVec Ideal ⟨2, ![K, N]⟩ φ₂)
    (v : FVec Ideal ⟨2, ![M, 1]⟩ .f32) (hb : (⟨2, ![M, 1]⟩ : Shape).Broadcasts ⟨2, ![M, N]⟩) (p : Fin M) (c : Fin N) :
    mulf (matmul d none x w (constant ⟨2, ![M, N]⟩ .f32 0x00000000#32)) (broadcastTo ⟨2, ![M, N]⟩ v hb) (ix2 p c)
      = (∑ q : Fin K, x (ix2 p q) * w (ix2 q c)) * v (ix2 p (0 : Fin 1)) := by
  rw [mulf_apply, Cert.PlainDot.matmul_zero_apply hd, col_bcast_apply hM]

end Cert.GemmScale

namespace Cert.KernelIdeal.Pay

open Cert.KernelIdeal Cert.KernelIdeal.Gen Idealize.ShloMosaic Idealize.ShloMosaic.ValueIdx

/-- The first body's stored block at `(p, c)`: row `p` of the node block times column `c` of the weights, scaled by the
    normaliser block's entry at row `p`. -/
theorem k0_pay1_apply (v0 : Vec Ideal S2000x768 .f32) (v2 : Vec Ideal S768x256 .f32) (v5 : Vec Ideal S2000x1 .f32)
    (p : Fin 2000) (c : Fin 256) :
    k0_pay1 (F := Ideal) v0 v2 v5 (ix2 p c)
      = (∑ q : Fin 768, v0 (ix2 p q) * v2 (ix2 q c)) * v5 (ix2 p (0 : Fin 1)) := by
  unfold k0_pay1
  show mulf (F := Ideal) (matmul (F := Ideal) dot_S2000x768_S768x256_S2000x256_1_0_0_1_n_n none (truncf .bf16 v0 bitsLt_bf16_f32)
      (truncf .bf16 v2 bitsLt_bf16_f32) (constant S2000x256 .f32 0x00000000#32))
      (broadcastTo S2000x256 (shapeCast S2000x1 v5 shapeCasts_S2000x1_S2000x1) broadcasts_S2000x1_S2000x256) (ix2 p c) = _
  rw [shapeCast_self]
  exact Cert.GemmScale.scaled_product_apply (M := 2000) (K := 768) (N := 256) _ ⟨rfl, rfl, rfl, rfl, rfl, rfl⟩ (by decide)
    (truncf .bf16 v0 bitsLt_bf16_f32) (truncf .bf16 v2 bitsLt_bf16_f32) v5 _ p c

/-- The second body's stored block at `(p, c)`: row `p` of the rectified, biased block times column `c` of the
    weights, scaled by the normaliser block's entry at row `p`. -/
theorem k1_pay1_apply (v0 : Vec Ideal S2000x256 .f32) (v2 : Vec Ideal S1x256 .f32) (v9 : Vec Ideal S256x256 .f32)
    (v12 : Vec Ideal S2000x1 .f32) (p : Fin 2000) (c : Fin 256) :
    k1_pay1 (F := Ideal) v0 v2 v9 v12 (ix2 p c)
      = (∑ q : Fin 256, max (v0 (ix2 p q) + v2 (ix2 (0 : Fin 1) q)) (Ideal.ofBits .f32 0x00000000#32) * v9 (ix2 q c))
        * v12 (ix2 p (0 : Fin 1)) := by
  unfold k1_pay1
  show mulf (F := Ideal) (matmul (F := Ideal) dot_S2000x256_S256x256_S2000x256_1_0_0_1_n_n none
      (truncf .bf16 (maximumf (addf (shapeCast S2000x256 v0 shapeCasts_S2000x256_S2000x256)
        (broadcastTo S2000x256 (shapeCast S1x256 v2 shapeCasts_S1x256_S1x256) broadcasts_S1x256_S2000x256))
        (broadcast S2000x256 (Scalar.ofBits (F := Ideal) .f32 0x00000000#32))) bitsLt_bf16_f32)
      (truncf .bf16 v9 bitsLt_bf16_f32) (constant S2000x256 .f32 0x00000000#32))
      (broadcastTo S2000x256 (shapeCast S2000x1 v12 shapeCasts_S2000x1_S2000x1) broadcasts_S2000x1_S2000x256) (ix2 p c) = _
  rw [shapeCast_self, shapeCast_self, shapeCast_self]
  refine (Cert.GemmScale.scaled_product_apply (M := 2000) (K := 256) (N := 256) _ ⟨rfl, rfl, rfl, rfl, rfl, rfl⟩ (by decide)
    _ (truncf .bf16 v9 bitsLt_bf16_f32) v12 _ p c).trans ?_
  refine congrArg (· * v12 (ix2 p (0 : Fin 1))) (Finset.sum_congr rfl fun q _ => ?_)
  refine congrArg (· * v9 (ix2 q c)) ?_
  show max (v0 (ix2 p q) + broadcastTo S2000x256 v2 broadcasts_S1x256_S2000x256 (ix2 p q)) _ = _
  rw [broadcastTo_1b_ab_apply]
  rfl

end Cert.KernelIdeal.Pay

end
-- ==== Proof.Blocks0.lean ====
/-
  What the first matrix-product region leaves in its output array, as one function of the arrays it finds.

  The region's grid has 25 points; point `t` stages rows `2000·t … 2000·t + 1999` of the node features and of the
  normaliser column, the whole weight matrix, and writes back rows `2000·t … 2000·t + 1999` of the output. The 25
  row blocks tile the 50000 rows, so after the region entry `(n, c)` of the output array is
      (Σ_k x[n, k] · w[k, c]) · d[n, 0],
  whatever arrays `x`, `w`, `d` the region was entered with.
-/
import proofs.«137476_j56418690400424_2_alg».proof.Proof.Gen.KernelIdeal.Frame
import proofs.«137476_j56418690400424_2_alg».proof.Proof.Payload

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Rows of the product of `x` and `w`, each scaled by the column `d`. -/
def scaledProduct (x : S50000x768.Idx → EReal) (w : S768x256.Idx → EReal) (d : S50000x1.Idx → EReal) :
    S50000x256.Idx → EReal :=
  fun i => (∑ k : Fin 768, x (ix2 (i 0) k) * w (ix2 k (i 1))) * d (ix2 (i 0) (0 : Fin 1))

theorem zero_off : (![0, 0] : Fin 2 → Nat) = fun _ => 0 := funext fun a => by fin_cases a <;> rfl

/-- The printed index maps over the grid: the row-blocked windows move together, the other block indices are zero. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the scaled product of the arrays the region finds. -/
theorem flushed_eq (c : Dev nD) (t : Fin cfg0.N) :
    (dat0 V c).flushed 3 t = ((cfg0.win 3).blk t).view.read (Elt Ideal)
      (scaledProduct (V c main_arg0) (V c main_arg3) (V c main_v15)) := by
  show (cfg0.win 3).cut (grid0.coords t) ((dat0 V c).after 3 t) = _
  rw [after0_3]
  unfold out0_3
  rw [View.canon_unit_zero zero_off]
  simp only [View.ld_unit_zero (S := S2000x768) zero_off, View.ld_unit_zero (S := S768x256) zero_off,
    View.ld_unit_zero (S := S2000x1) zero_off]
  obtain ⟨e0, e1, e2, e3, e4, e5, e6, e7⟩ := index_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = scaledProduct (V c main_arg0) (V c main_arg3) (V c main_v15) (((cfg0.win 3).blk t).view.emb (ix2 p q))
  refine (Cert.KernelIdeal.Pay.k0_pay1_apply (iblk0 V c 0 t) (iblk0 V c 1 t) (iblk0 V c 2 t) p q).trans ?_
  unfold scaledProduct
  have h2 : iblk0 V c 2 t (ix2 p (0 : Fin 1))
      = V c main_v15 (ix2 ((((cfg0.win 3).blk t).view.emb (ix2 p q)) 0) (0 : Fin 1)) := by
    show V c main_v15 (((cfg0.win 2).blk t).view.emb (ix2 p (0 : Fin 1))) = _
    refine congrArg (V c main_v15) (funext fun a => Fin.ext ?_)
    match a with
    | ⟨0, _⟩ =>
      show win0_2.index t (0 : Fin 2) * 2000 + 1 * p.val = win0_3.index t (0 : Fin 2) * 2000 + 1 * p.val
      omega
    | ⟨1, _⟩ =>
      show win0_2.index t (1 : Fin 2) * 1 + 1 * 0 = 0
      omega
  rw [h2]
  refine congrArg (· * _) (Finset.sum_congr rfl fun k _ => ?_)
  have h0 : iblk0 V c 0 t (ix2 p k)
      = V c main_arg0 (ix2 ((((cfg0.win 3).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 2000 + 1 * p.val = win0_3.index t (0 : Fin 2) * 2000 + 1 * p.val
      omega
    | ⟨1, _⟩ =>
      show win0_0.index t (1 : Fin 2) * 768 + 1 * k.val = k.val
      omega
  have h1 : iblk0 V c 1 t (ix2 k q)
      = V c main_arg3 (ix2 k ((((cfg0.win 3).blk t).view.emb (ix2 p q)) 1)) := by
    show V c main_arg3 (((cfg0.win 1).blk t).view.emb (ix2 k q)) = _
    refine congrArg (V c main_arg3) (funext fun a => Fin.ext ?_)
    match a with
    | ⟨0, _⟩ =>
      show win0_1.index t (0 : Fin 2) * 768 + 1 * k.val = k.val
      omega
    | ⟨1, _⟩ =>
      show win0_1.index t (1 : Fin 2) * 256 + 1 * q.val = win0_3.index t (1 : Fin 2) * 256 + 1 * q.val
      omega
  rw [h0, h1]

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v16).slice (win0_3.rect t)).set ↔ _
  rw [View.set_slice_whole, Rect.mem_set_unit]
  exact Iff.rfl

/-- Every entry of the output array is in the block of the point its row falls in. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e4, e5, e6, e7⟩ := index_facts t
  have e6' : win0_3.index t (0 : Fin 2) = (i 0).val / 2000 := e6
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- THE OUTPUT ARRAY after the region: the scaled product of the arrays the region was entered with. -/
theorem final (c : Dev nD) :
    (dat0 V c).arrAt 3 cfg0.N = scaledProduct (V c main_arg0) (V c main_arg3) (V c main_v15) :=
  (dat0 V c).arrAt_eq_of_cover 3 (scaledProduct (V c main_arg0) (V c main_arg3) (V c main_v15))
    (fun t _ => flushed_eq V c t) cover

end Cert.KernelIdeal.Region0

end
-- ==== Proof.KTerms.lean ====
/-
  The idealized kernel's host-side computations, named.

  From the edge list the program builds the source and target index vectors (the listed edges followed by one
  self-loop per node), the in-degree of every node as a count of the edges that land on it, and the normaliser
  `1/√degree` (zero where the degree is not positive). A layer then gathers the rows of a node table at the edges'
  sources, sums them into the edges' targets, and scales each target row by the target's normaliser. After the second
  layer come the bias, the mean over each graph's nodes and the final linear map. The two matrix-product regions
  enter through `scaledProduct` (the first) and `rectifiedProduct` (the second).
-/
import proofs.«137476_j56418690400424_2_alg».proof.Proof.Gen.KernelIdeal
import Idealize.ShloMosaic.PureOps.Ideal
import Idealize.ShloMosaic.Lib.ValueIdx

noncomputable section

open scoped BigOperators

namespace Cert.KernelIdeal.Terms

open Cert.KernelIdeal Cert.KernelIdeal.Gen Idealize.ShloMosaic Idealize.ShloMosaic.ValueIdx

/-- The edges' source nodes: row 0 of the edge list, then every node once (the self-loops). -/
def srcIdx (ei : IVec S2x800000 32) : IVec S850000 32 :=
  concatenate S850000 0
    [⟨S800000, shapeCast S800000 (extractStridedSlice S1x800000 ![0, 0] ei slices_S2x800000_S1x800000_0_0)
        shapeCasts_S1x800000_S800000⟩,
     ⟨S50000, iotaInDim S50000 32 0⟩]
    concatenates_S800000_S50000_S850000_d0

/-- The edges' target nodes: row 1 of the edge list, then every node once. -/
def dstIdx (ei : IVec S2x800000 32) : IVec S850000 32 :=
  concatenate S850000 0
    [⟨S800000, shapeCast S800000 (extractStridedSlice S1x800000 ![1, 0] ei slices_S2x800000_S1x800000_1_0)
        shapeCasts_S1x800000_S800000⟩,
     ⟨S50000, iotaInDim S50000 32 0⟩]
    concatenates_S800000_S50000_S850000_d0

/-- An index vector as a column of scatter indices. -/
def asColumn (x : IVec S850000 32) : IVec S850000x1 32 :=
  broadcastInDim S850000x1 ![0] bcast_S850000_S850000x1_0 x

/-- An index vector with its negative entries wrapped round by the number of nodes, as a column of start indices. -/
def wrapped (x : IVec S850000 32) : IVec S850000x1 32 :=
  broadcastInDim S850000x1 ![0] bcast_S850000_S850000x1_0
    (select (cmpi .slt x (broadcastInDim S850000 ![] bcast_S_S850000 (constantI S_ 32 0#32)))
      (addi x (broadcastInDim S850000 ![] bcast_S_S850000 (constantI S_ 32 50000#32))) x)

/-- The in-degree of every node: one for each edge that lands on it. -/
def degree (ei : IVec S2x800000 32) : FVec Ideal S50000 .f32 :=
  Host.scatterAdd scatter_S50000_S850000x1_S850000_n_0_0_1
    (broadcastInDim S50000 ![] bcast_S_S50000 (constant S_ .f32 0x00000000#32))
    (asColumn (dstIdx ei))
    (broadcastInDim S850000 ![] bcast_S_S850000 (constant S_ .f32 0x3F800000#32))

/-- The normaliser of every node: the reciprocal square root of its degree where that is positive, zero elsewhere. -/
def normalisers (ei : IVec S2x800000 32) : FVec Ideal S50000 .f32 :=
  select (cmpf .ogt (degree ei) (broadcastInDim S50000 ![] bcast_S_S50000 (constant S_ .f32 0x00000000#32)))
    (Host.rsqrt (degree ei))
    (broadcastInDim S50000 ![] bcast_S_S50000 (id (constant (F := Ideal) S_ .f32 0x00000000#32)))

/-- The normalisers as a column. -/
def normaliserColumn (ei : IVec S2x800000 32) : FVec Ideal S50000x1 .f32 :=
  shapeCast S50000x1 (normalisers ei) shapeCasts_S50000_S50000x1

/-- One layer's aggregation of a pre-scaled node table `hs`, from the source and target index vectors and the
    normaliser column: gather the rows at the edges' sources, sum them into the edges' targets, scale every target
    row by its normaliser. -/
def aggregateOf (src dst : IVec S850000 32) (ncol : FVec Ideal S50000x1 .f32) (hs : FVec Ideal S50000x256 .bf16) :
    FVec Ideal S50000x256 .f32 :=
  mulf (broadcastInDim S50000x256 ![0, 1] bcast_S50000x1_S50000x256_0_1 ncol)
    (Host.scatterAdd scatter_S50000x256_S850000x1_S850000x256_1_0_0_1
      (broadcastInDim S50000x256 ![] bcast_S_S50000x256 (constant S_ .f32 0x00000000#32))
      (asColumn dst)
      (extf .f32 (Host.gather gather_S50000x256_S850000x1_S850000x256_1_0_n_n_0_1_1256 hs (wrapped src))
        bitsLt_bf16_f32))

/-- The aggregation over the program's own index vectors and normalisers. -/
def aggregate (ei : IVec S2x800000 32) (hs : FVec Ideal S50000x256 .bf16) : FVec Ideal S50000x256 .f32 :=
  aggregateOf (srcIdx ei) (dstIdx ei) (normaliserColumn ei) hs

/-- What the second region leaves: rows of the product of the rectified, biased `x` with `w`, each scaled by `d`. -/
def rectifiedProduct (x : S50000x256.Idx → EReal) (b : S1x256.Idx → EReal) (w : S256x256.Idx → EReal)
    (d : S50000x1.Idx → EReal) : S50000x256.Idx → EReal :=
  fun i => (∑ k : Fin 256, max (x (ix2 (i 0) k) + b (ix2 (0 : Fin 1) k)) (Ideal.ofBits .f32 0x00000000#32) * w (ix2 k (i 1)))
    * d (ix2 (i 0) (0 : Fin 1))

/-- The second layer's bias added, the mean over each graph's nodes, and the final linear map with its bias. -/
def poolAndClassify (conv : FVec Ideal S50000x256 .f32) (batch : IVec S50000 32) (wfc : FVec Ideal S256x10 .f32)
    (bfc : FVec Ideal S10 .f32) : FVec Ideal S128x10 .f32 :=
  addf
    (Host.dotGeneral dot_S128x256_S256x10_S128x10_1_0_0_1_n_n none
      (Host.divf
        (Host.scatterAdd scatter_S128x256_S50000x1_S50000x256_1_0_0_1
          (broadcastInDim S128x256 ![] bcast_S_S128x256 (constant S_ .f32 0x00000000#32))
          (broadcastInDim S50000x1 ![0] bcast_S50000_S50000x1_0 batch) conv)
        (broadcastInDim S128x256 ![0, 1] bcast_S128x1_S128x256_0_1
          (broadcastInDim S128x1 ![0] bcast_S128_S128x1_0
            (maximumf
              (Host.scatterAdd scatter_S128_S50000x1_S50000_n_0_0_1
                (broadcastInDim S128 ![] bcast_S_S128 (constant S_ .f32 0x00000000#32))
                (broadcastInDim S50000x1 ![0] bcast_S50000_S50000x1_0 batch)
                (broadcastInDim S50000 ![] bcast_S_S50000 (constant S_ .f32 0x3F800000#32)))
              (broadcastInDim S128 ![] bcast_S_S128 (constant S_ .f32 0x3F800000#32))))))
      wfc)
    (broadcastInDim S128x10 ![0, 1] bcast_S1x10_S128x10_0_1 (broadcastInDim S1x10 ![1] bcast_S10_S1x10_1 bfc))

/-- A bias vector repeated down the node rows. -/
def biasRows (b : FVec Ideal S256 .f32) : FVec Ideal S50000x256 .f32 :=
  broadcastInDim S50000x256 ![0, 1] bcast_S1x256_S50000x256_0_1 (broadcastInDim S1x256 ![1] bcast_S256_S1x256_1 b)

end Cert.KernelIdeal.Terms

end
-- ==== Proof.Blocks1.lean ====
/-
  What the second matrix-product region leaves in its output array, as one function of the arrays it finds.

  The grid again has 25 points; point `t` stages rows `2000·t … 2000·t + 1999` of the first layer's aggregate and of
  the normaliser column, the whole bias row and the whole weight matrix, and writes back rows
  `2000·t … 2000·t + 1999` of the output. After the region entry `(n, c)` of the output array is
      (Σ_k max(x[n, k] + b[0, k], 0) · w[k, c]) · d[n, 0].
-/
import proofs.«137476_j56418690400424_2_alg».proof.Proof.Gen.KernelIdeal.Frame
import proofs.«137476_j56418690400424_2_alg».proof.Proof.Payload
import proofs.«137476_j56418690400424_2_alg».proof.Proof.KTerms

set_option maxRecDepth 16384

noncomputable section

open scoped BigOperators

namespace Cert.KernelIdeal.Region1

open Cert.KernelIdeal Cert.KernelIdeal.Gen Cert.KernelIdeal.Terms Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the row-blocked windows move together, the other block indices are zero. -/
theorem index_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = win1_4.index t (0 : Fin 2)
    ∧ win1_3.index t (1 : Fin 2) = 0
    ∧ win1_4.index t (0 : Fin 2) = t.val
    ∧ win1_4.index t (1 : Fin 2) = 0 :=
  (by decide +kernel : ∀ t : Fin grid1.N, _)

/-- What point `t` writes back is block `t` of the rectified product of the arrays the region finds. -/
theorem flushed_eq (c : Dev nD) (t : Fin cfg1.N) :
    (dat1 V c).flushed 4 t = ((cfg1.win 4).blk t).view.read (Elt Ideal)
      (rectifiedProduct (V c main_v29) (V c main_v30) (V c main_arg5) (V c main_v15)) := by
  show (cfg1.win 4).cut (grid1.coords t) ((dat1 V c).after 4 t) = _
  rw [after1_4]
  unfold out1_4
  rw [View.canon_unit_zero zero_off]
  simp only [View.ld_unit_zero (S := S2000x256) zero_off, View.ld_unit_zero (S := S1x256) zero_off,
    View.ld_unit_zero (S := S256x256) zero_off, View.ld_unit_zero (S := S2000x1) zero_off]
  obtain ⟨e0, e1, e2, e3, e4, e5, e6, e7, e8, e9⟩ := index_facts t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 3 t) (ix2 p q)
    = rectifiedProduct (V c main_v29) (V c main_v30) (V c main_arg5) (V c main_v15)
        (((cfg1.win 4).blk t).view.emb (ix2 p q))
  refine (Cert.KernelIdeal.Pay.k1_pay1_apply (iblk1 V c 0 t) (iblk1 V c 1 t) (iblk1 V c 2 t) (iblk1 V c 3 t) p q).trans ?_
  unfold rectifiedProduct
  have h3 : iblk1 V c 3 t (ix2 p (0 : Fin 1))
      = V c main_v15 (ix2 ((((cfg1.win 4).blk t).view.emb (ix2 p q)) 0) (0 : Fin 1)) := by
    show V c main_v15 (((cfg1.win 3).blk t).view.emb (ix2 p (0 : Fin 1))) = _
    refine congrArg (V c main_v15) (funext fun a => Fin.ext ?_)
    match a with
    | ⟨0, _⟩ =>
      show win1_3.index t (0 : Fin 2) * 2000 + 1 * p.val = win1_4.index t (0 : Fin 2) * 2000 + 1 * p.val
      omega
    | ⟨1, _⟩ =>
      show win1_3.index t (1 : Fin 2) * 1 + 1 * 0 = 0
      omega
  rw [h3]
  refine congrArg (· * _) (Finset.sum_congr rfl fun k _ => ?_)
  have h0 : iblk1 V c 0 t (ix2 p k)
      = V c main_v29 (ix2 ((((cfg1.win 4).blk t).view.emb (ix2 p q)) 0) k) := by
    show V c main_v29 (((cfg1.win 0).blk t).view.emb (ix2 p k)) = _
    refine congrArg (V c main_v29) (funext fun a => Fin.ext ?_)
    match a with
    | ⟨0, _⟩ =>
      show win1_0.index t (0 : Fin 2) * 2000 + 1 * p.val = win1_4.index t (0 : Fin 2) * 2000 + 1 * p.val
      omega
    | ⟨1, _⟩ =>
      show win1_0.index t (1 : Fin 2) * 256 + 1 * k.val = k.val
      omega
  have h1 : iblk1 V c 1 t (ix2 (0 : Fin 1) k) = V c main_v30 (ix2 (0 : Fin 1) k) := by
    show V c main_v30 (((cfg1.win 1).blk t).view.emb (ix2 (0 : Fin 1) k)) = _
    refine congrArg (V c main_v30) (funext fun a => Fin.ext ?_)
    match a with
    | ⟨0, _⟩ =>
      show win1_1.index t (0 : Fin 2) * 1 + 1 * 0 = 0
      omega
    | ⟨1, _⟩ =>
      show win1_1.index t (1 : Fin 2) * 256 + 1 * k.val = k.val
      omega
  have h2 : iblk1 V c 2 t (ix2 k q)
      = V c main_arg5 (ix2 k ((((cfg1.win 4).blk t).view.emb (ix2 p q)) 1)) := by
    show V c main_arg5 (((cfg1.win 2).blk t).view.emb (ix2 k q)) = _
    refine congrArg (V c main_arg5) (funext fun a => Fin.ext ?_)
    match a with
    | ⟨0, _⟩ =>
      show win1_2.index t (0 : Fin 2) * 256 + 1 * k.val = k.val
      omega
    | ⟨1, _⟩ =>
      show win1_2.index t (1 : Fin 2) * 256 + 1 * q.val = win1_4.index t (1 : Fin 2) * 256 + 1 * q.val
      omega
  rw [h0, h1, h2]

/-- An index of the output array is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v31).slice (win1_4.rect t)).set ↔ _
  rw [View.set_slice_whole, Rect.mem_set_unit]
  exact Iff.rfl

/-- Every entry of the output array is in the block of the point its row falls in. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e0, e1, e2, e3, e4, e5, e6, e7, e8, e9⟩ := index_facts t
  have e8' : win1_4.index t (0 : Fin 2) = (i 0).val / 2000 := e8
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- THE OUTPUT ARRAY after the region: the rectified product of the arrays the region was entered with. -/
theorem final (c : Dev nD) :
    (dat1 V c).arrAt 4 cfg1.N = rectifiedProduct (V c main_v29) (V c main_v30) (V c main_arg5) (V c main_v15) :=
  (dat1 V c).arrAt_eq_of_cover 4 (rectifiedProduct (V c main_v29) (V c main_v30) (V c main_arg5) (V c main_v15))
    (fun t _ => flushed_eq V c t) cover

end Cert.KernelIdeal.Region1

end
-- ==== Proof.KernelValue.lean ====
/-
  The idealized kernel's result as one term of its arguments.

  The buffer contents at the seven segment boundaries are read one boundary at a time. A stretch of host operations
  or a region that does not write a buffer leaves it as it was; the index vectors, the degree count and the normaliser
  column are what the first three stretches compute; each region's output array is the closed function of the arrays
  it finds (the two block-to-array modules); the stretch between the regions is one layer's aggregation and the
  reshaped bias, and the closing stretch is the second layer's aggregation, its bias, the pooling and the final
  linear map.
-/
import proofs.«137476_j56418690400424_2_alg».proof.Proof.Blocks0
import proofs.«137476_j56418690400424_2_alg».proof.Proof.Blocks1
import proofs.«137476_j56418690400424_2_alg».proof.Proof.KTerms
import Idealize.ShloMosaic.Lib.StableHlo.Run

set_option maxRecDepth 16384

noncomputable section

namespace Cert.KernelIdeal.ValueRead

open Cert.KernelIdeal Cert.KernelIdeal.Gen Cert.KernelIdeal.Terms
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A stretch of host operations leaves a buffer none of them writes. -/
macro "host_keeps" : tactic => `(tactic|
  exact StableHlo.after_of_forall_not_mem _ _ (List.forall_iff_forall_mem.mp (by
    simp only [hostOps0, hostOps0_1, hostOps0_2, hostOps1, hostOps2, List.flatten_cons, List.flatten_nil, List.append_nil,
      List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## Buffers carried unchanged from the launch -/

/-- A buffer that nothing before the first region writes holds its launch contents there. -/
theorem W3_of_launch (b : Ref sig .tc)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W3 m ρ c (Proc.devRef .tc b) = W0 m ρ c (Proc.devRef .tc b) := h2.trans (h1.trans h0)

theorem W3_arg0 : W3 m ρ c (Proc.devRef .tc main_arg0) = m ((c : Thread nD τ).loc main_arg0) :=
  W3_of_launch m ρ c main_arg0 (by host_keeps) (by host_keeps) (by host_keeps)
theorem W3_arg2 : W3 m ρ c (Proc.devRef .tc main_arg2) = m ((c : Thread nD τ).loc main_arg2) :=
  W3_of_launch m ρ c main_arg2 (by host_keeps) (by host_keeps) (by host_keeps)
theorem W3_arg3 : W3 m ρ c (Proc.devRef .tc main_arg3) = m ((c : Thread nD τ).loc main_arg3) :=
  W3_of_launch m ρ c main_arg3 (by host_keeps) (by host_keeps) (by host_keeps)
theorem W3_arg4 : W3 m ρ c (Proc.devRef .tc main_arg4) = m ((c : Thread nD τ).loc main_arg4) :=
  W3_of_launch m ρ c main_arg4 (by host_keeps) (by host_keeps) (by host_keeps)
theorem W3_arg5 : W3 m ρ c (Proc.devRef .tc main_arg5) = m ((c : Thread nD τ).loc main_arg5) :=
  W3_of_launch m ρ c main_arg5 (by host_keeps) (by host_keeps) (by host_keeps)
theorem W3_arg6 : W3 m ρ c (Proc.devRef .tc main_arg6) = m ((c : Thread nD τ).loc main_arg6) :=
  W3_of_launch m ρ c main_arg6 (by host_keeps) (by host_keeps) (by host_keeps)
theorem W3_arg7 : W3 m ρ c (Proc.devRef .tc main_arg7) = m ((c : Thread nD τ).loc main_arg7) :=
  W3_of_launch m ρ c main_arg7 (by host_keeps) (by host_keeps) (by host_keeps)
theorem W3_arg8 : W3 m ρ c (Proc.devRef .tc main_arg8) = m ((c : Thread nD τ).loc main_arg8) :=
  W3_of_launch m ρ c main_arg8 (by host_keeps) (by host_keeps) (by host_keeps)

/-! ## The first three stretches: index vectors, degree, normalisers -/

theorem W1_v3 : W1 m ρ c (Proc.devRef .tc main_v3) = srcIdx (m ((c : Thread nD τ).loc main_arg1)) := by
  show StableHlo.after hostOps0 (W0 m ρ c) (Proc.devRef .tc main_v3) = _
  after_results
  rfl

theorem W1_v6 : W1 m ρ c (Proc.devRef .tc main_v6) = dstIdx (m ((c : Thread nD τ).loc main_arg1)) := by
  show StableHlo.after hostOps0 (W0 m ρ c) (Proc.devRef .tc main_v6) = _
  after_results
  rfl

theorem W1_v12 : W1 m ρ c (Proc.devRef .tc main_v12)
    = cmpf .ogt (degree (m ((c : Thread nD τ).loc main_arg1)))
        (broadcastInDim S50000 ![] bcast_S_S50000 (constant S_ .f32 0x00000000#32)) := by
  show StableHlo.after hostOps0 (W0 m ρ c) (Proc.devRef .tc main_v12) = _
  after_results
  rfl

theorem W1_v13 : W1 m ρ c (Proc.devRef .tc main_v13) = Host.rsqrt (degree (m ((c : Thread nD τ).loc main_arg1))) := by
  show StableHlo.after hostOps0 (W0 m ρ c) (Proc.devRef .tc main_v13) = _
  after_results
  rfl

theorem W1_cst2 : W1 m ρ c (Proc.devRef .tc main_cst_2) = constant (F := Ideal) S_ .f32 0x00000000#32 := by
  show StableHlo.after hostOps0 (W0 m ρ c) (Proc.devRef .tc main_cst_2) = _
  after_results

theorem W2_v14 : W2 m ρ c (Proc.devRef .tc main_v14) = normalisers (m ((c : Thread nD τ).loc main_arg1)) := by
  have key : ∀ V : Valuation τ sig (Elt Ideal), StableHlo.after hostOps0_1 V (Proc.devRef .tc main_v14)
      = select (V (Proc.devRef .tc main_v12)) (V (Proc.devRef .tc main_v13))
          (broadcastInDim S50000 ![] bcast_S_S50000 (id (V (Proc.devRef .tc main_cst_2)))) := by
    intro V
    after_results
    rfl
  refine (key (W1 m ρ c)).trans ?_
  rw [W1_v12, W1_v13, W1_cst2]
  rfl

theorem W3_v15 : W3 m ρ c (Proc.devRef .tc main_v15) = normaliserColumn (m ((c : Thread nD τ).loc main_arg1)) := by
  have key : ∀ V : Valuation τ sig (Elt Ideal), StableHlo.after hostOps0_2 V (Proc.devRef .tc main_v15)
      = shapeCast S50000x1 (V (Proc.devRef .tc main_v14)) shapeCasts_S50000_S50000x1 := by
    intro V
    after_results
    rfl
  refine (key (W2 m ρ c)).trans ?_
  rw [W2_v14]
  rfl

theorem W3_v3 : W3 m ρ c (Proc.devRef .tc main_v3) = srcIdx (m ((c : Thread nD τ).loc main_arg1)) :=
  (show W3 m ρ c (Proc.devRef .tc main_v3) = W2 m ρ c (Proc.devRef .tc main_v3) by host_keeps).trans
    ((show W2 m ρ c (Proc.devRef .tc main_v3) = W1 m ρ c (Proc.devRef .tc main_v3) by host_keeps).trans (W1_v3 m ρ c))

theorem W3_v6 : W3 m ρ c (Proc.devRef .tc main_v6) = dstIdx (m ((c : Thread nD τ).loc main_arg1)) :=
  (show W3 m ρ c (Proc.devRef .tc main_v6) = W2 m ρ c (Proc.devRef .tc main_v6) by host_keeps).trans
    ((show W2 m ρ c (Proc.devRef .tc main_v6) = W1 m ρ c (Proc.devRef .tc main_v6) by host_keeps).trans (W1_v6 m ρ c))

/-! ## The first region -/

theorem W4_v16 : W4 m ρ c (Proc.devRef .tc main_v16)
    = Region0.scaledProduct (m ((c : Thread nD τ).loc main_arg0)) (m ((c : Thread nD τ).loc main_arg3))
        (normaliserColumn (m ((c : Thread nD τ).loc main_arg1))) := by
  refine (W4_arr m ρ c 3).trans ((Region0.final (V3 m ρ) c).trans ?_)
  show Region0.scaledProduct (W3 m ρ c (Proc.devRef .tc main_arg0)) (W3 m ρ c (Proc.devRef .tc main_arg3))
    (W3 m ρ c (Proc.devRef .tc main_v15)) = _
  rw [W3_arg0, W3_arg3, W3_v15]

theorem W4_v15 : W4 m ρ c (Proc.devRef .tc main_v15) = normaliserColumn (m ((c : Thread nD τ).loc main_arg1)) :=
  ((W4_arr m ρ c 2).trans (((dat0 (V3 m ρ) c).arrAt_in 2 rfl _).trans (A_eq0 (V3 m ρ) c 2))).trans (W3_v15 m ρ c)

theorem W4_v3 : W4 m ρ c (Proc.devRef .tc main_v3) = srcIdx (m ((c : Thread nD τ).loc main_arg1)) :=
  (W4_of_ne m ρ c main_v3 (by decide)).trans (W3_v3 m ρ c)
theorem W4_v6 : W4 m ρ c (Proc.devRef .tc main_v6) = dstIdx (m ((c : Thread nD τ).loc main_arg1)) :=
  (W4_of_ne m ρ c main_v6 (by decide)).trans (W3_v6 m ρ c)
theorem W4_arg2 : W4 m ρ c (Proc.devRef .tc main_arg2) = m ((c : Thread nD τ).loc main_arg2) :=
  (W4_of_ne m ρ c main_arg2 (by decide)).trans (W3_arg2 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)

/-! ## Between the regions: the first layer's aggregation and the reshaped bias -/

/-- The first layer's aggregate. -/
def conv1 : FVec Ideal S50000x256 .f32 :=
  aggregate (m ((c : Thread nD τ).loc main_arg1))
    (Region0.scaledProduct (m ((c : Thread nD τ).loc main_arg0)) (m ((c : Thread nD τ).loc main_arg3))
      (normaliserColumn (m ((c : Thread nD τ).loc main_arg1))))

set_option maxHeartbeats 4000000 in
theorem W5_v29 : W5 m ρ c (Proc.devRef .tc main_v29) = conv1 m c := by
  have key : ∀ V : Valuation τ sig (Elt Ideal), StableHlo.after hostOps1 V (Proc.devRef .tc main_v29)
      = aggregateOf (V (Proc.devRef .tc main_v3)) (V (Proc.devRef .tc main_v6)) (V (Proc.devRef .tc main_v15))
          (V (Proc.devRef .tc main_v16)) := by
    intro V
    after_results_simp
    rfl
  refine (key (W4 m ρ c)).trans ?_
  rw [W4_v3, W4_v6, W4_v15, W4_v16]
  rfl

set_option maxHeartbeats 4000000 in
theorem W5_v30 : W5 m ρ c (Proc.devRef .tc main_v30)
    = shapeCast S1x256 (m ((c : Thread nD τ).loc main_arg4)) shapeCasts_S256_S1x256 := by
  have key : ∀ V : Valuation τ sig (Elt Ideal), StableHlo.after hostOps1 V (Proc.devRef .tc main_v30)
      = shapeCast S1x256 (V (Proc.devRef .tc main_arg4)) shapeCasts_S256_S1x256 := by
    intro V
    after_results_simp
    rfl
  refine (key (W4 m ρ c)).trans ?_
  rw [W4_arg4]

theorem W5_v3 : W5 m ρ c (Proc.devRef .tc main_v3) = srcIdx (m ((c : Thread nD τ).loc main_arg1)) :=
  (show W5 m ρ c (Proc.devRef .tc main_v3) = W4 m ρ c (Proc.devRef .tc main_v3) by host_keeps).trans (W4_v3 m ρ c)
theorem W5_v6 : W5 m ρ c (Proc.devRef .tc main_v6) = dstIdx (m ((c : Thread nD τ).loc main_arg1)) :=
  (show W5 m ρ c (Proc.devRef .tc main_v6) = W4 m ρ c (Proc.devRef .tc main_v6) by host_keeps).trans (W4_v6 m ρ c)
theorem W5_v15 : W5 m ρ c (Proc.devRef .tc main_v15) = normaliserColumn (m ((c : Thread nD τ).loc main_arg1)) :=
  (show W5 m ρ c (Proc.devRef .tc main_v15) = W4 m ρ c (Proc.devRef .tc main_v15) by host_keeps).trans (W4_v15 m ρ c)
theorem W5_arg2 : W5 m ρ c (Proc.devRef .tc main_arg2) = m ((c : Thread nD τ).loc main_arg2) :=
  (show W5 m ρ c (Proc.devRef .tc main_arg2) = W4 m ρ c (Proc.devRef .tc main_arg2) by host_keeps).trans (W4_arg2 m ρ c)
theorem W5_arg5 : W5 m ρ c (Proc.devRef .tc main_arg5) = m ((c : Thread nD τ).loc main_arg5) :=
  (show W5 m ρ c (Proc.devRef .tc main_arg5) = W4 m ρ c (Proc.devRef .tc main_arg5) by host_keeps).trans (W4_arg5 m ρ c)
theorem W5_arg6 : W5 m ρ c (Proc.devRef .tc main_arg6) = m ((c : Thread nD τ).loc main_arg6) :=
  (show W5 m ρ c (Proc.devRef .tc main_arg6) = W4 m ρ c (Proc.devRef .tc main_arg6) by host_keeps).trans (W4_arg6 m ρ c)
theorem W5_arg7 : W5 m ρ c (Proc.devRef .tc main_arg7) = m ((c : Thread nD τ).loc main_arg7) :=
  (show W5 m ρ c (Proc.devRef .tc main_arg7) = W4 m ρ c (Proc.devRef .tc main_arg7) by host_keeps).trans (W4_arg7 m ρ c)
theorem W5_arg8 : W5 m ρ c (Proc.devRef .tc main_arg8) = m ((c : Thread nD τ).loc main_arg8) :=
  (show W5 m ρ c (Proc.devRef .tc main_arg8) = W4 m ρ c (Proc.devRef .tc main_arg8) by host_keeps).trans (W4_arg8 m ρ c)

/-! ## The second region -/

/-- What the second region leaves: the rectified, biased first layer times the second weights, rows scaled. -/
def hidden2 : S50000x256.Idx → EReal :=
  rectifiedProduct (conv1 m c) (shapeCast S1x256 (m ((c : Thread nD τ).loc main_arg4)) shapeCasts_S256_S1x256)
    (m ((c : Thread nD τ).loc main_arg5)) (normaliserColumn (m ((c : Thread nD τ).loc main_arg1)))

theorem W6_v31 : W6 m ρ c (Proc.devRef .tc main_v31) = hidden2 m c := by
  refine (W6_arr m ρ c 4).trans ((Region1.final (V5 m ρ) c).trans ?_)
  show rectifiedProduct (W5 m ρ c (Proc.devRef .tc main_v29)) (W5 m ρ c (Proc.devRef .tc main_v30))
    (W5 m ρ c (Proc.devRef .tc main_arg5)) (W5 m ρ c (Proc.devRef .tc main_v15)) = _
  rw [W5_v29, W5_v30, W5_arg5, W5_v15]
  rfl

theorem W6_v15 : W6 m ρ c (Proc.devRef .tc main_v15) = normaliserColumn (m ((c : Thread nD τ).loc main_arg1)) :=
  ((W6_arr m ρ c 3).trans (((dat1 (V5 m ρ) c).arrAt_in 3 rfl _).trans (A_eq1 (V5 m ρ) c 3))).trans (W5_v15 m ρ c)
theorem W6_v3 : W6 m ρ c (Proc.devRef .tc main_v3) = srcIdx (m ((c : Thread nD τ).loc main_arg1)) :=
  (W6_of_ne m ρ c main_v3 (by decide)).trans (W5_v3 m ρ c)
theorem W6_v6 : W6 m ρ c (Proc.devRef .tc main_v6) = dstIdx (m ((c : Thread nD τ).loc main_arg1)) :=
  (W6_of_ne m ρ c main_v6 (by decide)).trans (W5_v6 m ρ c)
theorem W6_arg2 : W6 m ρ c (Proc.devRef .tc main_arg2) = m ((c : Thread nD τ).loc main_arg2) :=
  (W6_of_ne m ρ c main_arg2 (by decide)).trans (W5_arg2 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)

/-! ## The closing stretch -/

/-- The kernel's result as a term of its arguments. -/
def kernelOut : FVec Ideal S128x10 .f32 :=
  poolAndClassify
    (addf (aggregate (m ((c : Thread nD τ).loc main_arg1)) (hidden2 m c)) (biasRows (m ((c : Thread nD τ).loc main_arg6))))
    (m ((c : Thread nD τ).loc main_arg2)) (m ((c : Thread nD τ).loc main_arg7)) (m ((c : Thread nD τ).loc main_arg8))

set_option maxHeartbeats 8000000 in
theorem W7_v63 : W7 m ρ c (Proc.devRef .tc main_v63) = kernelOut m c := by
  have key : ∀ V : Valuation τ sig (Elt Ideal), StableHlo.after hostOps2 V (Proc.devRef .tc main_v63)
      = poolAndClassify
          (addf (aggregateOf (V (Proc.devRef .tc main_v3)) (V (Proc.devRef .tc main_v6)) (V (Proc.devRef .tc main_v15))
            (V (Proc.devRef .tc main_v31))) (biasRows (V (Proc.devRef .tc main_arg6))))
          (V (Proc.devRef .tc main_arg2)) (V (Proc.devRef .tc main_arg7)) (V (Proc.devRef .tc main_arg8)) := by
    intro V
    after_results_simp
    rfl
  refine (key (W6 m ρ c)).trans ?_
  rw [W6_v3, W6_v6, W6_v15, W6_v31, W6_arg2, W6_arg6, W6_arg7, W6_arg8]
  rfl

end Cert.KernelIdeal.ValueRead

end
-- ==== Proof.RTerms.lean ====
/-
  The idealized reference's computations, named.

  The reference builds the same source and target index vectors, degree count and normalisers. A layer multiplies the
  node table by the weights, gathers the product's rows at the edges' sources, scales each gathered row by the product
  of its two ends' normalisers, sums the rows into the edges' targets and adds the bias; the first layer is rectified.
  Then the mean over each graph's nodes and the final linear map.
-/
import proofs.«137476_j56418690400424_2_alg».proof.Proof.Gen.ReferenceIdeal
import Idealize.ShloMosaic.PureOps.Ideal
import Idealize.ShloMosaic.Lib.ValueIdx

noncomputable section

namespace Cert.ReferenceIdeal.Terms

open Cert.ReferenceIdeal Cert.ReferenceIdeal.Gen Idealize.ShloMosaic Idealize.ShloMosaic.ValueIdx

/-- The edges' source nodes: row 0 of the edge list, then every node once (the self-loops). -/
def srcIdx (ei : IVec S2x800000 32) : IVec S850000 32 :=
  concatenate S850000 0
    [⟨S800000, shapeCast S800000 (extractStridedSlice S1x800000 ![0, 0] ei slices_S2x800000_S1x800000_0_0)
        shapeCasts_S1x800000_S800000⟩,
     ⟨S50000, iotaInDim S50000 32 0⟩]
    concatenates_S800000_S50000_S850000_d0

/-- The edges' target nodes: row 1 of the edge list, then every node once. -/
def dstIdx (ei : IVec S2x800000 32) : IVec S850000 32 :=
  concatenate S850000 0
    [⟨S800000, shapeCast S800000 (extractStridedSlice S1x800000 ![1, 0] ei slices_S2x800000_S1x800000_1_0)
        shapeCasts_S1x800000_S800000⟩,
     ⟨S50000, iotaInDim S50000 32 0⟩]
    concatenates_S800000_S50000_S850000_d0

/-- An index vector as a column of scatter indices. -/
def asColumn (x : IVec S850000 32) : IVec S850000x1 32 :=
  broadcastInDim S850000x1 ![0] bcast_S850000_S850000x1_0 x

/-- An index vector with its negative entries wrapped round by the number of nodes, as a column of start indices. -/
def wrapped (x : IVec S850000 32) : IVec S850000x1 32 :=
  broadcastInDim S850000x1 ![0] bcast_S850000_S850000x1_0
    (select (cmpi .slt x (broadcastInDim S850000 ![] bcast_S_S850000 (constantI S_ 32 0#32)))
      (addi x (broadcastInDim S850000 ![] bcast_S_S850000 (constantI S_ 32 50000#32))) x)

/-- The in-degree of every node: one for each edge that lands on it. -/
def degreeOf (dst : IVec S850000 32) : FVec Ideal S50000 .f32 :=
  Host.scatterAdd scatter_S50000_S850000x1_S850000_n_0_0_1
    (broadcastInDim S50000 ![] bcast_S_S50000 (constant S_ .f32 0x00000000#32))
    (asColumn dst)
    (broadcastInDim S850000 ![] bcast_S_S850000 (constant S_ .f32 0x3F800000#32))

/-- The normaliser of every node: the reciprocal square root of its degree where that is positive, zero elsewhere. -/
def normalisersOf (dst : IVec S850000 32) : FVec Ideal S50000 .f32 :=
  select (cmpf .ogt (degreeOf dst) (broadcastInDim S50000 ![] bcast_S_S50000 (constant S_ .f32 0x00000000#32)))
    (Host.rsqrt (degreeOf dst))
    (broadcastInDim S50000 ![] bcast_S_S50000 (id (constant (F := Ideal) S_ .f32 0x00000000#32)))

/-- Every edge's weight from a vector `d` of node normalisers: the product of its two ends' entries. -/
def edgeWeightsOf (src dst : IVec S850000 32) (d : FVec Ideal S50000 .f32) : FVec Ideal S850000 .f32 :=
  mulf (Host.gather gather_S50000_S850000x1_S850000_n_0_n_n_0_1_1 d (wrapped src))
    (Host.gather gather_S50000_S850000x1_S850000_n_0_n_n_0_1_1 d (wrapped dst))

/-- One layer's message passing over a node table `h` with node normalisers `d`: gather the rows at the edges'
    sources, weight each by its edge, sum them into the edges' targets. -/
def messagePassOf (src dst : IVec S850000 32) (d : FVec Ideal S50000 .f32) (h : FVec Ideal S50000x256 .f32) :
    FVec Ideal S50000x256 .f32 :=
  Host.scatterAdd scatter_S50000x256_S850000x1_S850000x256_1_0_0_1
    (broadcastInDim S50000x256 ![] bcast_S_S50000x256 (constant S_ .f32 0x00000000#32))
    (asColumn dst)
    (mulf (Host.gather gather_S50000x256_S850000x1_S850000x256_1_0_n_n_0_1_1256 h (wrapped src))
      (broadcastInDim S850000x256 ![0, 1] bcast_S850000x1_S850000x256_0_1
        (broadcastInDim S850000x1 ![0] bcast_S850000_S850000x1_0 (edgeWeightsOf src dst d))))

/-- Every edge's weight: the product of its two ends' normalisers. -/
def edgeWeights (src dst : IVec S850000 32) : FVec Ideal S850000 .f32 := edgeWeightsOf src dst (normalisersOf dst)

/-- One layer's message passing with the program's own normalisers. -/
def messagePass (src dst : IVec S850000 32) (h : FVec Ideal S50000x256 .f32) : FVec Ideal S50000x256 .f32 :=
  messagePassOf src dst (normalisersOf dst) h

/-- A node table rectified: its maximum with zero, entry by entry. -/
def rectified (x : FVec Ideal S50000x256 .f32) : FVec Ideal S50000x256 .f32 :=
  maximumf x (broadcastInDim S50000x256 ![] bcast_S_S50000x256 (constant S_ .f32 0x00000000#32))

/-- A bias vector repeated down the node rows. -/
def biasRows (b : FVec Ideal S256 .f32) : FVec Ideal S50000x256 .f32 :=
  broadcastInDim S50000x256 ![0, 1] bcast_S1x256_S50000x256_0_1 (broadcastInDim S1x256 ![1] bcast_S256_S1x256_1 b)

/-- The first layer's output: message passing over the first product, the bias, rectified. -/
def layer1 (src dst : IVec S850000 32) (emb : FVec Ideal S50000x768 .f32) (w1 : FVec Ideal S768x256 .f32)
    (b1 : FVec Ideal S256 .f32) : FVec Ideal S50000x256 .f32 :=
  rectified
    (addf (messagePass src dst (Host.dotGeneral dot_S50000x768_S768x256_S50000x256_1_0_0_1_n_n none emb w1)) (biasRows b1))

/-- The second layer's output: message passing over the second product, the bias. -/
def layer2 (src dst : IVec S850000 32) (x : FVec Ideal S50000x256 .f32) (w2 : FVec Ideal S256x256 .f32)
    (b2 : FVec Ideal S256 .f32) : FVec Ideal S50000x256 .f32 :=
  addf (messagePass src dst (Host.dotGeneral dot_S50000x256_S256x256_S50000x256_1_0_0_1_n_n none x w2)) (biasRows b2)

/-- The mean over each graph's nodes and the final linear map with its bias. -/
def poolAndClassify (conv : FVec Ideal S50000x256 .f32) (batch : IVec S50000 32) (wfc : FVec Ideal S256x10 .f32)
    (bfc : FVec Ideal S10 .f32) : FVec Ideal S128x10 .f32 :=
  addf
    (Host.dotGeneral dot_S128x256_S256x10_S128x10_1_0_0_1_n_n none
      (Host.divf
        (Host.scatterAdd scatter_S128x256_S50000x1_S50000x256_1_0_0_1
          (broadcastInDim S128x256 ![] bcast_S_S128x256 (constant S_ .f32 0x00000000#32))
          (broadcastInDim S50000x1 ![0] bcast_S50000_S50000x1_0 batch) conv)
        (broadcastInDim S128x256 ![0, 1] bcast_S128x1_S128x256_0_1
          (broadcastInDim S128x1 ![0] bcast_S128_S128x1_0
            (maximumf
              (Host.scatterAdd scatter_S128_S50000x1_S50000_n_0_0_1
                (broadcastInDim S128 ![] bcast_S_S128 (constant S_ .f32 0x00000000#32))
                (broadcastInDim S50000x1 ![0] bcast_S50000_S50000x1_0 batch)
                (broadcastInDim S50000 ![] bcast_S_S50000 (constant S_ .f32 0x3F800000#32)))
              (broadcastInDim S128 ![] bcast_S_S128 (constant S_ .f32 0x3F800000#32))))))
      wfc)
    (broadcastInDim S128x10 ![0, 1] bcast_S1x10_S128x10_0_1 (broadcastInDim S1x10 ![1] bcast_S10_S1x10_1 bfc))

/-- The reference's result from the index vectors and the arguments. -/
def refOutOf (src dst : IVec S850000 32) (emb : FVec Ideal S50000x768 .f32) (w1 : FVec Ideal S768x256 .f32)
    (b1 : FVec Ideal S256 .f32) (w2 : FVec Ideal S256x256 .f32) (b2 : FVec Ideal S256 .f32) (batch : IVec S50000 32)
    (wfc : FVec Ideal S256x10 .f32) (bfc : FVec Ideal S10 .f32) : FVec Ideal S128x10 .f32 :=
  poolAndClassify (layer2 src dst (layer1 src dst emb w1 b1) w2 b2) batch wfc bfc

end Cert.ReferenceIdeal.Terms

end
-- ==== Proof.RefS1.lean ====
/-
  The reference's first seven operations: the source and target index vectors; no argument is written.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

theorem st1_v3 : after ((ops (F := Ideal)).take 7) (launchContents m c) (Proc.devRef .tc main_v3)
    = srcIdx (m ((c.tc : Thread nD τ).loc main_arg1)) := by
  simp only [ops, List.take_succ_cons, List.take_zero]
  after_results
  rfl
theorem st1_v6 : after ((ops (F := Ideal)).take 7) (launchContents m c) (Proc.devRef .tc main_v6)
    = dstIdx (m ((c.tc : Thread nD τ).loc main_arg1)) := by
  simp only [ops, List.take_succ_cons, List.take_zero]
  after_results
  rfl
theorem st1_arg0 : after ((ops (F := Ideal)).take 7) (launchContents m c) (Proc.devRef .tc main_arg0)
    = m ((c.tc : Thread nD τ).loc main_arg0) := by
  simp only [ops, List.take_succ_cons, List.take_zero]
  after_results
theorem st1_arg2 : after ((ops (F := Ideal)).take 7) (launchContents m c) (Proc.devRef .tc main_arg2)
    = m ((c.tc : Thread nD τ).loc main_arg2) := by
  simp only [ops, List.take_succ_cons, List.take_zero]
  after_results
theorem st1_arg3 : after ((ops (F := Ideal)).take 7) (launchContents m c) (Proc.devRef .tc main_arg3)
    = m ((c.tc : Thread nD τ).loc main_arg3) := by
  simp only [ops, List.take_succ_cons, List.take_zero]
  after_results
theorem st1_arg4 : after ((ops (F := Ideal)).take 7) (launchContents m c) (Proc.devRef .tc main_arg4)
    = m ((c.tc : Thread nD τ).loc main_arg4) := by
  simp only [ops, List.take_succ_cons, List.take_zero]
  after_results
theorem st1_arg5 : after ((ops (F := Ideal)).take 7) (launchContents m c) (Proc.devRef .tc main_arg5)
    = m ((c.tc : Thread nD τ).loc main_arg5) := by
  simp only [ops, List.take_succ_cons, List.take_zero]
  after_results
theorem st1_arg6 : after ((ops (F := Ideal)).take 7) (launchContents m c) (Proc.devRef .tc main_arg6)
    = m ((c.tc : Thread nD τ).loc main_arg6) := by
  simp only [ops, List.take_succ_cons, List.take_zero]
  after_results
theorem st1_arg7 : after ((ops (F := Ideal)).take 7) (launchContents m c) (Proc.devRef .tc main_arg7)
    = m ((c.tc : Thread nD τ).loc main_arg7) := by
  simp only [ops, List.take_succ_cons, List.take_zero]
  after_results
theorem st1_arg8 : after ((ops (F := Ideal)).take 7) (launchContents m c) (Proc.devRef .tc main_arg8)
    = m ((c.tc : Thread nD τ).loc main_arg8) := by
  simp only [ops, List.take_succ_cons, List.take_zero]
  after_results

end Cert.ReferenceIdeal.ValueRead

end
-- ==== Proof.RefS2.lean ====
/-
  The reference's operations 8–22, from any contents: the first matrix product and the node normalisers; the index
  vectors and the arguments are left as they were.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

/-- One stage of the operation list, as a literal, folded once. -/
macro "stage_simp_s2" : tactic => `(tactic|
  (simp only [ops, List.take_succ_cons, List.take_zero, List.drop_succ_cons, List.drop_zero]
   after_results_simp))

theorem st2_v7 (V : Valuation τ sig (Elt Ideal)) :
    after (((ops (F := Ideal)).drop 7).take 15) V (Proc.devRef .tc main_v7)
      = Host.dotGeneral (F := Ideal) (φ₁ := .f32) (φ₂ := .f32) dot_S50000x768_S768x256_S50000x256_1_0_0_1_n_n none
          (V (Proc.devRef .tc main_arg0) : FVec Ideal S50000x768 .f32) (V (Proc.devRef .tc main_arg3) : FVec Ideal S768x256 .f32) := by
  stage_simp_s2
  all_goals rfl
theorem st2_v15 (V : Valuation τ sig (Elt Ideal)) :
    after (((ops (F := Ideal)).drop 7).take 15) V (Proc.devRef .tc main_v15)
      = normalisersOf (V (Proc.devRef .tc main_v6)) := by
  stage_simp_s2
  all_goals rfl
theorem st2_keep_v3 (V : Valuation τ sig (Elt Ideal)) :
    after (((ops (F := Ideal)).drop 7).take 15) V (Proc.devRef .tc main_v3) = V (Proc.devRef .tc main_v3) := by
  stage_simp_s2
theorem st2_keep_v6 (V : Valuation τ sig (Elt Ideal)) :
    after (((ops (F := Ideal)).drop 7).take 15) V (Proc.devRef .tc main_v6) = V (Proc.devRef .tc main_v6) := by
  stage_simp_s2
theorem st2_keep_arg4 (V : Valuation τ sig (Elt Ideal)) :
    after (((ops (F := Ideal)).drop 7).take 15) V (Proc.devRef .tc main_arg4) = V (Proc.devRef .tc main_arg4) := by
  stage_simp_s2
theorem st2_keep_arg5 (V : Valuation τ sig (Elt Ideal)) :
    after (((ops (F := Ideal)).drop 7).take 15) V (Proc.devRef .tc main_arg5) = V (Proc.devRef .tc main_arg5) := by
  stage_simp_s2
theorem st2_keep_arg6 (V : Valuation τ sig (Elt Ideal)) :
    after (((ops (F := Ideal)).drop 7).take 15) V (Proc.devRef .tc main_arg6) = V (Proc.devRef .tc main_arg6) := by
  stage_simp_s2
theorem st2_keep_arg2 (V : Valuation τ sig (Elt Ideal)) :
    after (((ops (F := Ideal)).drop 7).take 15) V (Proc.devRef .tc main_arg2) = V (Proc.devRef .tc main_arg2) := by
  stage_simp_s2
theorem st2_keep_arg7 (V : Valuation τ sig (Elt Ideal)) :
    after (((ops (F := Ideal)).drop 7).take 15) V (Proc.devRef .tc main_arg7) = V (Proc.devRef .tc main_arg7) := by
  stage_simp_s2
theorem st2_keep_arg8 (V : Valuation τ sig (Elt Ideal)) :
    after (((ops (F := Ideal)).drop 7).take 15) V (Proc.devRef .tc main_arg8) = V (Proc.devRef .tc main_arg8) := by
  stage_simp_s2

end Cert.ReferenceIdeal.ValueRead

end
-- ==== Proof.RefS3.lean ====
/-
  The reference's operations 23–63, from any contents: the first layer — message passing over the first product, the
  bias, the rectifier.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

/-- One stage of the operation list, as a literal, folded once. -/
macro "stage_simp_s3" : tactic => `(tactic|
  (simp only [ops, List.take_succ_cons, List.take_zero, List.drop_succ_cons, List.drop_zero]
   after_results_simp))

theorem st3_v47 (V : Valuation τ sig (Elt Ideal)) :
    after ((((ops (F := Ideal)).drop 7).drop 15).take 41) V (Proc.devRef .tc main_v47)
      = rectified (addf (messagePassOf (V (Proc.devRef .tc main_v3)) (V (Proc.devRef .tc main_v6)) (V (Proc.devRef .tc main_v15)) (V (Proc.devRef .tc main_v7))) (biasRows (V (Proc.devRef .tc main_arg4)))) := by
  stage_simp_s3
  all_goals rfl
theorem st3_keep_v3 (V : Valuation τ sig (Elt Ideal)) :
    after ((((ops (F := Ideal)).drop 7).drop 15).take 41) V (Proc.devRef .tc main_v3) = V (Proc.devRef .tc main_v3) := by
  stage_simp_s3
theorem st3_keep_v6 (V : Valuation τ sig (Elt Ideal)) :
    after ((((ops (F := Ideal)).drop 7).drop 15).take 41) V (Proc.devRef .tc main_v6) = V (Proc.devRef .tc main_v6) := by
  stage_simp_s3
theorem st3_keep_arg5 (V : Valuation τ sig (Elt Ideal)) :
    after ((((ops (F := Ideal)).drop 7).drop 15).take 41) V (Proc.devRef .tc main_arg5) = V (Proc.devRef .tc main_arg5) := by
  stage_simp_s3
theorem st3_keep_arg6 (V : Valuation τ sig (Elt Ideal)) :
    after ((((ops (F := Ideal)).drop 7).drop 15).take 41) V (Proc.devRef .tc main_arg6) = V (Proc.devRef .tc main_arg6) := by
  stage_simp_s3
theorem st3_keep_arg2 (V : Valuation τ sig (Elt Ideal)) :
    after ((((ops (F := Ideal)).drop 7).drop 15).take 41) V (Proc.devRef .tc main_arg2) = V (Proc.devRef .tc main_arg2) := by
  stage_simp_s3
theorem st3_keep_arg7 (V : Valuation τ sig (Elt Ideal)) :
    after ((((ops (F := Ideal)).drop 7).drop 15).take 41) V (Proc.devRef .tc main_arg7) = V (Proc.devRef .tc main_arg7) := by
  stage_simp_s3
theorem st3_keep_arg8 (V : Valuation τ sig (Elt Ideal)) :
    after ((((ops (F := Ideal)).drop 7).drop 15).take 41) V (Proc.devRef .tc main_arg8) = V (Proc.devRef .tc main_arg8) := by
  stage_simp_s3

end Cert.ReferenceIdeal.ValueRead

end
-- ==== Proof.RefS4.lean ====
/-
  The reference's operations 64–78, from any contents: the second matrix product and the node normalisers again.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

/-- One stage of the operation list, as a literal, folded once. -/
macro "stage_simp_s4" : tactic => `(tactic|
  (simp only [ops, List.take_succ_cons, List.take_zero, List.drop_succ_cons, List.drop_zero]
   after_results_simp))

theorem st4_v48 (V : Valuation τ sig (Elt Ideal)) :
    after (((((ops (F := Ideal)).drop 7).drop 15).drop 41).take 15) V (Proc.devRef .tc main_v48)
      = Host.dotGeneral (F := Ideal) (φ₁ := .f32) (φ₂ := .f32) dot_S50000x256_S256x256_S50000x256_1_0_0_1_n_n none
          (V (Proc.devRef .tc main_v47) : FVec Ideal S50000x256 .f32) (V (Proc.devRef .tc main_arg5) : FVec Ideal S256x256 .f32) := by
  stage_simp_s4
  all_goals rfl
theorem st4_v56 (V : Valuation τ sig (Elt Ideal)) :
    after (((((ops (F := Ideal)).drop 7).drop 15).drop 41).take 15) V (Proc.devRef .tc main_v56)
      = normalisersOf (V (Proc.devRef .tc main_v6)) := by
  stage_simp_s4
  all_goals rfl
theorem st4_keep_v3 (V : Valuation τ sig (Elt Ideal)) :
    after (((((ops (F := Ideal)).drop 7).drop 15).drop 41).take 15) V (Proc.devRef .tc main_v3) = V (Proc.devRef .tc main_v3) := by
  stage_simp_s4
theorem st4_keep_v6 (V : Valuation τ sig (Elt Ideal)) :
    after (((((ops (F := Ideal)).drop 7).drop 15).drop 41).take 15) V (Proc.devRef .tc main_v6) = V (Proc.devRef .tc main_v6) := by
  stage_simp_s4
theorem st4_keep_arg6 (V : Valuation τ sig (Elt Ideal)) :
    after (((((ops (F := Ideal)).drop 7).drop 15).drop 41).take 15) V (Proc.devRef .tc main_arg6) = V (Proc.devRef .tc main_arg6) := by
  stage_simp_s4
theorem st4_keep_arg2 (V : Valuation τ sig (Elt Ideal)) :
    after (((((ops (F := Ideal)).drop 7).drop 15).drop 41).take 15) V (Proc.devRef .tc main_arg2) = V (Proc.devRef .tc main_arg2) := by
  stage_simp_s4
theorem st4_keep_arg7 (V : Valuation τ sig (Elt Ideal)) :
    after (((((ops (F := Ideal)).drop 7).drop 15).drop 41).take 15) V (Proc.devRef .tc main_arg7) = V (Proc.devRef .tc main_arg7) := by
  stage_simp_s4
theorem st4_keep_arg8 (V : Valuation τ sig (Elt Ideal)) :
    after (((((ops (F := Ideal)).drop 7).drop 15).drop 41).take 15) V (Proc.devRef .tc main_arg8) = V (Proc.devRef .tc main_arg8) := by
  stage_simp_s4

end Cert.ReferenceIdeal.ValueRead

end
-- ==== Proof.RefS5.lean ====
/-
  The reference's operations 79–116, from any contents: the second layer — message passing over the second product and
  the bias.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

/-- One stage of the operation list, as a literal, folded once. -/
macro "stage_simp_s5" : tactic => `(tactic|
  (simp only [ops, List.take_succ_cons, List.take_zero, List.drop_succ_cons, List.drop_zero]
   after_results_simp))

theorem st5_v87 (V : Valuation τ sig (Elt Ideal)) :
    after ((((((ops (F := Ideal)).drop 7).drop 15).drop 41).drop 15).take 38) V (Proc.devRef .tc main_v87)
      = addf (messagePassOf (V (Proc.devRef .tc main_v3)) (V (Proc.devRef .tc main_v6)) (V (Proc.devRef .tc main_v56)) (V (Proc.devRef .tc main_v48))) (biasRows (V (Proc.devRef .tc main_arg6))) := by
  stage_simp_s5
  all_goals rfl
theorem st5_keep_arg2 (V : Valuation τ sig (Elt Ideal)) :
    after ((((((ops (F := Ideal)).drop 7).drop 15).drop 41).drop 15).take 38) V (Proc.devRef .tc main_arg2) = V (Proc.devRef .tc main_arg2) := by
  stage_simp_s5
theorem st5_keep_arg7 (V : Valuation τ sig (Elt Ideal)) :
    after ((((((ops (F := Ideal)).drop 7).drop 15).drop 41).drop 15).take 38) V (Proc.devRef .tc main_arg7) = V (Proc.devRef .tc main_arg7) := by
  stage_simp_s5
theorem st5_keep_arg8 (V : Valuation τ sig (Elt Ideal)) :
    after ((((((ops (F := Ideal)).drop 7).drop 15).drop 41).drop 15).take 38) V (Proc.devRef .tc main_arg8) = V (Proc.devRef .tc main_arg8) := by
  stage_simp_s5

end Cert.ReferenceIdeal.ValueRead

end
-- ==== Proof.RefS6.lean ====
/-
  The reference's last twenty operations, from any contents: the mean over each graph's nodes and the final linear map.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

/-- One stage of the operation list, as a literal, folded once. -/
macro "stage_simp_s6" : tactic => `(tactic|
  (simp only [ops, List.take_succ_cons, List.take_zero, List.drop_succ_cons, List.drop_zero]
   after_results_simp))

theorem st6_v103 (V : Valuation τ sig (Elt Ideal)) :
    after ((((((ops (F := Ideal)).drop 7).drop 15).drop 41).drop 15).drop 38) V (Proc.devRef .tc main_v103)
      = poolAndClassify (V (Proc.devRef .tc main_v87)) (V (Proc.devRef .tc main_arg2)) (V (Proc.devRef .tc main_arg7)) (V (Proc.devRef .tc main_arg8)) := by
  stage_simp_s6
  all_goals rfl

end Cert.ReferenceIdeal.ValueRead

end
-- ==== Proof.RefValue.lean ====
/-
  The idealized reference's result as one term of its arguments.

  The run ends with every buffer at the fold of the 136 operations over the launch contents. The fold is the six
  stages run one after the other; each stage's lemmas say what it writes and what it leaves, so the result buffer is
  read back stage by stage to the index vectors and the arguments.
-/
import proofs.«137476_j56418690400424_2_alg».proof.Proof.RefRunP
import proofs.«137476_j56418690400424_2_alg».proof.Proof.RTerms
import proofs.«137476_j56418690400424_2_alg».proof.Proof.RefS1
import proofs.«137476_j56418690400424_2_alg».proof.Proof.RefS2
import proofs.«137476_j56418690400424_2_alg».proof.Proof.RefS3
import proofs.«137476_j56418690400424_2_alg».proof.Proof.RefS4
import proofs.«137476_j56418690400424_2_alg».proof.Proof.RefS5
import proofs.«137476_j56418690400424_2_alg».proof.Proof.RefS6

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

/-- A line of operations run in two parts: the second part folds over what the first leaves. -/
theorem after_split {Val : EltTy → Type} (n : Nat) (l : List (HloOp τ sig Val)) (V : Valuation τ sig Val) :
    after l V = after (l.drop n) (after (l.take n) V) := by
  induction l generalizing V n with
  | nil => simp only [List.drop_nil, List.take_nil, after_nil]
  | cons op l ih =>
    cases n with
    | zero => rfl
    | succ k => simp only [List.drop_succ_cons, List.take_succ_cons, after_cons]; exact ih k _

variable (m : (ℓ : Loc nD τ sig) → Buf (Elt Ideal) ℓ) (c : Dev nD)

/-- The reference's result as a term of its arguments. -/
def refOut : FVec Ideal S128x10 .f32 :=
  refOutOf (srcIdx (m ((c.tc : Thread nD τ).loc main_arg1))) (dstIdx (m ((c.tc : Thread nD τ).loc main_arg1)))
    (m ((c.tc : Thread nD τ).loc main_arg0)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg2))
    (m ((c.tc : Thread nD τ).loc main_arg7)) (m ((c.tc : Thread nD τ).loc main_arg8))

theorem result : after (ops (F := Ideal)) (launchContents m c) (Proc.devRef .tc main_v103) = refOut m c := by
  rw [after_split 7 (ops (F := Ideal)), after_split 15 ((ops (F := Ideal)).drop 7),
    after_split 41 (((ops (F := Ideal)).drop 7).drop 15), after_split 15 ((((ops (F := Ideal)).drop 7).drop 15).drop 41),
    after_split 38 (((((ops (F := Ideal)).drop 7).drop 15).drop 41).drop 15)]
  rw [st6_v103, st5_v87, st5_keep_arg2, st5_keep_arg7, st5_keep_arg8, st4_v48, st4_v56, st4_keep_v3, st4_keep_v6, st4_keep_arg6, st4_keep_arg2, st4_keep_arg7, st4_keep_arg8, st3_v47, st3_keep_v3, st3_keep_v6, st3_keep_arg5, st3_keep_arg6, st3_keep_arg2, st3_keep_arg7, st3_keep_arg8, st2_v7, st2_v15, st2_keep_v3, st2_keep_v6, st2_keep_arg4, st2_keep_arg5, st2_keep_arg6, st2_keep_arg2, st2_keep_arg7, st2_keep_arg8, st1_v3, st1_v6, st1_arg0, st1_arg2, st1_arg3, st1_arg4, st1_arg5, st1_arg6, st1_arg7, st1_arg8]
  rfl

end Cert.ReferenceIdeal.ValueRead

end
-- ==== Proof.RefArgs.lean ====
/-
  The reference's arguments end as launched: none of its operations writes one.
-/
import proofs.«137476_j56418690400424_2_alg».proof.Proof.RefRunP
import proofs.«137476_j56418690400424_2_alg».proof.Proof.RTerms

set_option maxRecDepth 16384
set_option maxHeartbeats 2000000

noncomputable section

namespace Cert.ReferenceIdeal.ValueRead

open Cert.ReferenceIdeal Cert.ReferenceIdeal.Gen Cert.ReferenceIdeal.Terms Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

/-- The fold leaves a buffer that none of the operations writes. -/
macro "ref_keeps" : tactic => `(tactic|
  exact StableHlo.after_of_forall_not_mem _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

set_option maxHeartbeats 2000000 in
theorem kept_arg0 : after (ops (F := Ideal)) (launchContents m c) (Proc.devRef .tc main_arg0)
    = m ((c.tc : Thread nD τ).loc main_arg0) := by ref_keeps
set_option maxHeartbeats 2000000 in
theorem kept_arg1 : after (ops (F := Ideal)) (launchContents m c) (Proc.devRef .tc main_arg1)
    = m ((c.tc : Thread nD τ).loc main_arg1) := by ref_keeps
set_option maxHeartbeats 2000000 in
theorem kept_arg2 : after (ops (F := Ideal)) (launchContents m c) (Proc.devRef .tc main_arg2)
    = m ((c.tc : Thread nD τ).loc main_arg2) := by ref_keeps
set_option maxHeartbeats 2000000 in
theorem kept_arg3 : after (ops (F := Ideal)) (launchContents m c) (Proc.devRef .tc main_arg3)
    = m ((c.tc : Thread nD τ).loc main_arg3) := by ref_keeps
set_option maxHeartbeats 2000000 in
theorem kept_arg4 : after (ops (F := Ideal)) (launchContents m c) (Proc.devRef .tc main_arg4)
    = m ((c.tc : Thread nD τ).loc main_arg4) := by ref_keeps
set_option maxHeartbeats 2000000 in
theorem kept_arg5 : after (ops (F := Ideal)) (launchContents m c) (Proc.devRef .tc main_arg5)
    = m ((c.tc : Thread nD τ).loc main_arg5) := by ref_keeps
set_option maxHeartbeats 2000000 in
theorem kept_arg6 : after (ops (F := Ideal)) (launchContents m c) (Proc.devRef .tc main_arg6)
    = m ((c.tc : Thread nD τ).loc main_arg6) := by ref_keeps
set_option maxHeartbeats 2000000 in
theorem kept_arg7 : after (ops (F := Ideal)) (launchContents m c) (Proc.devRef .tc main_arg7)
    = m ((c.tc : Thread nD τ).loc main_arg7) := by ref_keeps
set_option maxHeartbeats 2000000 in
theorem kept_arg8 : after (ops (F := Ideal)) (launchContents m c) (Proc.devRef .tc main_arg8)
    = m ((c.tc : Thread nD τ).loc main_arg8) := by ref_keeps

end Cert.ReferenceIdeal.ValueRead

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.BridgeNorm.lean ====
/-
  The selection `where(g > 0, rsqrt g, 0)` over a vector `g` of degrees, read at one node: `1/√g` where the degree is
  positive and zero elsewhere — the node's normaliser, which is therefore non-negative and never `+∞`.
-/
import proofs.«137476_j56418690400424_2_alg».proof.Proof.KTerms
import proofs.«137476_j56418690400424_2_alg».proof.Proof.LibGcnLaw
import proofs.«137476_j56418690400424_2_alg».proof.Proof.LibBroadcast
import Idealize.ShloMosaic.PureOps.Ideal.Laws

set_option maxRecDepth 16384

noncomputable section

open scoped BigOperators

namespace Cert.Bridge

open Cert Idealize.ShloMosaic Idealize.ShloMosaic.ValueIdx

-- the scatters, gathers and products range over 850000 edges and 50000 nodes: they are read through their
-- entry-by-entry lemmas only, never unfolded
attribute [local irreducible] Host.scatterAdd Host.gather Ideal.hostScatterAdd Ideal.matmul

section
open Cert.KernelIdeal Cert.KernelIdeal.Gen

/-- The selection over a vector `g`, read at one entry: the normaliser of that entry. -/
theorem normaliser_of (g : FVec Ideal S50000 .f32) (n : Fin 50000) :
    select (cmpf .ogt g (broadcastInDim S50000 ![] bcast_S_S50000 (constant S_ .f32 0x00000000#32)))
      (Host.rsqrt g)
      (broadcastInDim S50000 ![] bcast_S_S50000 (id (constant (F := Ideal) S_ .f32 0x00000000#32))) (ix1 n)
    = Cert.GcnLaw.normaliser (g (ix1 n)) := by
  rw [select_apply, cmpf_apply, Ideal.cmpf_def, Cert.Bcast.scalar_apply, Cert.Bcast.scalar_apply]
  simp only [Host.rsqrt, Ideal.hostUnary_rsqrt_def, id_eq, constant_apply, Ideal.ofBits_zero_f32]
  exact Cert.GcnLaw.select_eq_normaliser _

end

end Cert.Bridge

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«137476_j56418690400424_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.LibGcnLayer.lean ====
/-
  ONE GRAPH-CONVOLUTION LAYER, TWO WAYS (a general theorem: any extents, any records of the row-gather / row-scatter form).

  A node table `h : [N, C]` is gathered at the edges' sources and summed into the edges' targets. One program first
  scales row `n` of the table by the node's normaliser `d n` (the table `hs`), sums, and scales the summed row `n` by
  `d n` once more; the other multiplies every gathered row by the product of its two ends' normalisers and then sums.
  Entry by entry both are a sum over the edges `e` that land on the row:
      d n · Σ_e h[src e, c] · d (src e)   =   Σ_e h[src e, c] · (d (src e) · d (dst e)),
  because an edge that lands on `n` has target `n`, and because `d n` is non-negative and not `+∞`, so it distributes
  over the sum whatever the summands are.
-/
import proofs.«137476_j56418690400424_2_alg».proof.Proof.LibRowGatherScatter
import proofs.«137476_j56418690400424_2_alg».proof.Proof.LibVecGather
import proofs.«137476_j56418690400424_2_alg».proof.Proof.LibGcnLaw
import Idealize.ShloMosaic.Lib.Pipeline.Value
import Idealize.ShloMosaic.Lib.ValueIdx
import Idealize.ShloMosaic.Lib.Affine

noncomputable section

open scoped BigOperators

namespace Cert.GcnLayer

open Idealize.ShloMosaic Idealize.ShloMosaic.ValueIdx Cert.RowGS Cert.VecGather

variable {N E C : Nat}

/-- An edge that lands on node `n` has a non-negative target index, so wrapping negative indices round leaves it alone
    and clamping it into range gives `n` again. -/
theorem wrapped_target (hN : 0 < N) (D Sd : IVec ⟨2, ![E, 1]⟩ 32) (k : BitVec 32) (e : Fin E) (n : Fin N)
    (hw : Sd (ix2 e (0 : Fin 1)) = Scalar.select (IntOp.cmpi .slt (D (ix2 e (0 : Fin 1))) 0#32)
      (IntOp.addi (D (ix2 e (0 : Fin 1))) k) (D (ix2 e (0 : Fin 1))))
    (hl : Lands D e n) : srcRow hN Sd e = n := by
  have hx : (D (ix2 e (0 : Fin 1))).toInt = (n.val : Int) := hl
  have hc : ¬ IntOp.cmpi .slt (D (ix2 e (0 : Fin 1))) 0#32 = 1#1 := by
    rw [IntOp.cmpi_slt, hx]
    have : (0#32 : BitVec 32).toInt = 0 := by decide
    rw [this]
    omega
  have hs : Sd (ix2 e (0 : Fin 1)) = D (ix2 e (0 : Fin 1)) := by
    rw [hw]; unfold Scalar.select; exact if_neg hc
  apply Fin.ext
  show min (Sd (ix2 e (0 : Fin 1))).toInt.toNat (N - 1) = n.val
  rw [hs, hx]
  have hn : n.val < N := n.isLt
  simp only [Int.toNat_natCast]
  omega

/-- THE LAYER THEOREM. -/
theorem layer_eq (hN : 0 < N)
    {gd gd' : GatherDims ⟨2, ![N, C]⟩ ⟨2, ![E, 1]⟩ ⟨2, ![E, C]⟩} (hgd : IsRowGather gd) (hgd' : IsRowGather gd')
    {sd sd' : ScatterDims ⟨2, ![N, C]⟩ ⟨2, ![E, 1]⟩ ⟨2, ![E, C]⟩} (hsd : IsRowScatter sd) (hsd' : IsRowScatter sd')
    (zeros zeros' : FVec Ideal ⟨2, ![N, C]⟩ .f32) (hz : ∀ i, zeros i = 0) (hz' : ∀ i, zeros' i = 0)
    (D S Sd : IVec ⟨2, ![E, 1]⟩ 32)
    (hSd : ∀ (e : Fin E) (n : Fin N), Lands D e n → srcRow hN Sd e = n)
    (d : (⟨1, ![N]⟩ : Shape).Idx → EReal) (hd0 : ∀ n, 0 ≤ d (ix1 n)) (hdt : ∀ n, d (ix1 n) ≠ ⊤)
    (dcol : FVec Ideal ⟨2, ![N, C]⟩ .f32) (hdcol : ∀ n c, dcol (ix2 n c) = d (ix1 n))
    (nrm : FVec Ideal ⟨2, ![E, C]⟩ .f32)
    (hnrm : ∀ e c, nrm (ix2 e c) = d (ix1 (srcRow hN S e)) * d (ix1 (srcRow hN Sd e)))
    {φ : FTy} (hφ : φ.bits < (FTy.f32).bits) (hs : FVec Ideal ⟨2, ![N, C]⟩ φ) (h : FVec Ideal ⟨2, ![N, C]⟩ .f32)
    (hh : ∀ n c, (hs (ix2 n c) : EReal) = h (ix2 n c) * d (ix1 n)) :
    mulf dcol (Host.scatterAdd sd zeros D (extf .f32 (Host.gather gd hs S) hφ))
      = Host.scatterAdd sd' zeros' D (mulf (Host.gather gd' h S) nrm) := by
  funext i
  obtain ⟨n, c, rfl⟩ : ∃ (n : Fin N) (c : Fin C), i = ix2 n c := ⟨i 0, i 1, eq_ix2 i⟩
  rw [mulf_apply, hdcol, scatterAdd_row_apply hsd, scatterAdd_row_apply hsd', hz, hz']
  have hl : ∀ e ∈ Finset.univ.filter (fun e : Fin E => Lands D e n),
      (extf .f32 (Host.gather gd hs S) hφ) (ix2 e c) = h (ix2 (srcRow hN S e) c) * d (ix1 (srcRow hN S e)) := by
    intro e _
    rw [extf_apply, gather_row_apply hgd hN]
    exact hh _ _
  have hr : ∀ e ∈ Finset.univ.filter (fun e : Fin E => Lands D e n),
      (mulf (Host.gather gd' h S) nrm) (ix2 e c)
        = h (ix2 (srcRow hN S e) c) * (d (ix1 (srcRow hN S e)) * d (ix1 n)) := by
    intro e he
    rw [mulf_apply, gather_row_apply hgd' hN, hnrm, hSd e n (Finset.mem_filter.mp he).2]
  rw [Finset.sum_congr rfl hl, Finset.sum_congr rfl hr]
  exact Cert.GcnLaw.layer _ _ (hd0 n) (hdt n) _ _

end Cert.GcnLayer

end
-- ==== Proof.LibLayout.lean ====
/-
  General lemmas on small layout operations over the extended reals, read at an index.

  * a vector [a] laid out as the row [1, a] or as the column [a, 1], and a column [a, 1] read back as a vector: the entry
    at (0, n), at (r, 0), at r is the vector's (the column's) entry at n, at r, at (r, 0) (the row-major position is the
    same number);
  * a rank-0 constant broadcast over any shape is the splat of its one value;
  * a lane sum: the sum of row r of an [a, 128] array over its 128 lanes, from a zero initial value, as a finite sum.
  None depends on a program.
-/
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

/-- A vector [a] laid out as the row [1, a]: the row's entry at (0, n) is the vector's entry at n (stated for any index
    k of the vector with k 0 = i 1, so that it meets an index function given by cases). -/
theorem bias_row {α : Type} {a : ℕ} (b : (⟨1, ![a]⟩ : Shape).Idx → α)
    (h : (⟨1, ![a]⟩ : Shape).ShapeCasts ⟨2, ![1, a]⟩) (i : (⟨2, ![1, a]⟩ : Shape).Idx)
    (k : (⟨1, ![a]⟩ : Shape).Idx) (hk : (k 0).val = (i 1).val) : shapeCast ⟨2, ![1, a]⟩ b h i = b k :=
  shapeCast_apply b h i k (by
    have h0 : (i 0).val < 1 := (i 0).isLt
    rw [Shape.rowMajor_val_one, Shape.rowMajor_val_two]
    show (k 0).val = (i 0).val * a + (i 1).val
    rw [show (i 0).val = 0 by omega, Nat.zero_mul, Nat.zero_add]
    exact hk)

/-- A vector [a] given a trailing unit axis: the column's entry at (r, 0) is the vector's entry at r. -/
theorem col_of_vec {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column [a, 1] with its unit axis dropped: the vector's entry at r is the column's entry at (r, 0). -/
theorem vec_of_col {α : Type} {a : ℕ} (v : (⟨2, ![a, 1]⟩ : Shape).Idx → α)
    (h : (⟨2, ![a, 1]⟩ : Shape).ShapeCasts ⟨1, ![a]⟩) (r : Fin a) :
    shapeCast ⟨1, ![a]⟩ v h (ix1 r) = v (ix2 r (0 : Fin 1)) :=
  shapeCast_apply v h _ _ (by
    rw [Shape.rowMajor_val_two, Shape.rowMajor_val_one]
    show r.val * 1 + 0 = r.val
    rw [Nat.mul_one, Nat.add_zero])

/-- A rank-0 constant broadcast over a shape is the splat of its one value. -/
theorem splat_eq {s : Shape} (h : (⟨0, ![]⟩ : Shape).BroadcastsInDim s ![]) (z : BitVec 32) :
    (broadcastInDim s ![] h (constant (F := Ideal) ⟨0, ![]⟩ .f32 z) : FVec Ideal s .f32)
      = broadcast s (Scalar.ofBits (F := Ideal) .f32 z) := by
  funext i
  exact broadcastInDim_apply (s := ⟨0, ![]⟩) ![] h (constant (F := Ideal) ⟨0, ![]⟩ .f32 z) i (fun a => a.elim0)
    (fun a => a.elim0)

/-- The sum of row r of an [a, 128] array over its 128 lanes, from a zero initial value (stated with the proofs the
    operation carries as variables: a printed operation's own proofs then meet it by proof irrelevance in term mode). -/
theorem lane_sum {a : ℕ} (v : FVec Ideal ⟨2, ![a, 128]⟩ .f32) (h : (⟨2, ![a, 128]⟩ : Shape).Reduces [1] ⟨1, ![a]⟩)
    (hφ : FKind.Formats .f32) (hacc : (0x00000000#32 : BitVec (FTy.f32).bits) = FKind.add.neutral .f32 hφ) (r : Fin a) :
    multiReduction .add [1] ⟨1, ![a]⟩ v 0x00000000#32 h hφ hacc (ix1 r) = ∑ k : Fin 128, v (ix2 r k) :=
  (Ideal.multiReduction_add_single v 0x00000000#32 h hφ hacc (ix1 r)).trans
    (Finset.sum_congr rfl fun k _ => congrArg v (funext fun c => Fin.ext (by
      match c with
      | ⟨0, _⟩ => rfl
      | ⟨1, _⟩ => rfl)))

end Cert.Lib

end
-- ==== Proof.BridgeLayer.lean ====
/-
  One layer, for this program's records, over any index vectors and any vector `d` of node normalisers that are
  non-negative and not `+∞`: the kernel's aggregation of a node table pre-scaled by `d` (with `d` as a column) is the
  reference's message passing over the unscaled table (the layer theorem at 50000 nodes, 850000 edges, 256 columns).
-/
import proofs.«137476_j56418690400424_2_alg».proof.Proof.KTerms
import proofs.«137476_j56418690400424_2_alg».proof.Proof.RTerms
import proofs.«137476_j56418690400424_2_alg».proof.Proof.LibGcnLayer
import proofs.«137476_j56418690400424_2_alg».proof.Proof.LibVecGather
import proofs.«137476_j56418690400424_2_alg».proof.Proof.LibLayout
import proofs.«137476_j56418690400424_2_alg».proof.Proof.LibBroadcast
import Idealize.ShloMosaic.PureOps.Ideal.Laws

set_option maxRecDepth 16384

noncomputable section

open scoped BigOperators

namespace Cert.Bridge

open Cert Idealize.ShloMosaic Idealize.ShloMosaic.ValueIdx

-- the scatters, gathers and products range over 850000 edges and 50000 nodes: they are read through their
-- entry-by-entry lemmas only, never unfolded
attribute [local irreducible] Host.scatterAdd Host.gather Ideal.hostScatterAdd Ideal.matmul

variable (src dst : IVec KernelIdeal.S850000 32) (d : FVec Ideal KernelIdeal.S50000 .f32)
  (hd0 : ∀ n : Fin 50000, 0 ≤ d (ix1 n)) (hdt : ∀ n : Fin 50000, d (ix1 n) ≠ ⊤)

/-- The normalisers as a column, at row `n`. -/
theorem column_of (n : Fin 50000) :
    shapeCast KernelIdeal.S50000x1 d KernelIdeal.Facts₀.shapeCasts_S50000_S50000x1 (ix2 n (0 : Fin 1)) = d (ix1 n) :=
  Cert.Lib.col_of_vec _ _ n 0

include hd0 hdt in
/-- The kernel's aggregation of a table pre-scaled by the normalisers is the reference's message passing over the
    unscaled table. -/
theorem aggregateOf_eq (hs : FVec Ideal KernelIdeal.S50000x256 .bf16) (h : FVec Ideal KernelIdeal.S50000x256 .f32)
    (hh : ∀ (n : Fin 50000) (c : Fin 256), (hs (ix2 n c) : EReal) = h (ix2 n c) * d (ix1 n)) :
    KernelIdeal.Terms.aggregateOf src dst (shapeCast KernelIdeal.S50000x1 d KernelIdeal.Facts₀.shapeCasts_S50000_S50000x1) hs
      = ReferenceIdeal.Terms.messagePassOf src dst d h := by
  unfold KernelIdeal.Terms.aggregateOf ReferenceIdeal.Terms.messagePassOf
  show _ = Host.scatterAdd ReferenceIdeal.scatter_S50000x256_S850000x1_S850000x256_1_0_0_1
    (broadcastInDim ReferenceIdeal.S50000x256 ![] ReferenceIdeal.Facts₀.bcast_S_S50000x256
      (constant ReferenceIdeal.S_ .f32 0x00000000#32))
    (KernelIdeal.Terms.asColumn dst)
    (mulf (Host.gather ReferenceIdeal.gather_S50000x256_S850000x1_S850000x256_1_0_n_n_0_1_1256 h
        (KernelIdeal.Terms.wrapped src))
      (broadcastInDim ReferenceIdeal.S850000x256 ![0, 1] ReferenceIdeal.Facts₀.bcast_S850000x1_S850000x256_0_1
        (broadcastInDim ReferenceIdeal.S850000x1 ![0] ReferenceIdeal.Facts₀.bcast_S850000_S850000x1_0
          (ReferenceIdeal.Terms.edgeWeightsOf src dst d))))
  refine Cert.GcnLayer.layer_eq (N := 50000) (E := 850000) (C := 256) (by decide)
    ⟨rfl, rfl, rfl, rfl, rfl, rfl, rfl⟩ ⟨rfl, rfl, rfl, rfl, rfl, rfl, rfl⟩ ⟨rfl, rfl, rfl, rfl⟩ ⟨rfl, rfl, rfl, rfl⟩
    _ _ ?hz ?hz' (KernelIdeal.Terms.asColumn dst) (KernelIdeal.Terms.wrapped src) (ReferenceIdeal.Terms.wrapped dst) ?hSd
    d hd0 hdt _ ?hdcol _ ?hnrm KernelIdeal.Facts₀.bitsLt_bf16_f32 hs h hh
  case hz =>
    intro i
    rw [Cert.Bcast.scalar_apply, constant_apply, Ideal.ofBits_zero_f32]
  case hz' =>
    intro i
    rw [Cert.Bcast.scalar_apply, constant_apply, Ideal.ofBits_zero_f32]
  case hSd =>
    intro e n hl
    refine Cert.GcnLayer.wrapped_target (by decide) _ _ 50000#32 e n ?_ hl
    unfold ReferenceIdeal.Terms.wrapped KernelIdeal.Terms.asColumn
    simp only [Cert.Bcast.col_apply (E := 850000) (by decide)]
    rfl
  case hdcol =>
    intro n c
    rw [Cert.Bcast.rows_of_col_apply (N := 50000) (by decide)]
    exact column_of d n
  case hnrm =>
    intro e c
    rw [Cert.Bcast.rows_of_col_apply (N := 850000) (by decide), Cert.Bcast.col_apply (E := 850000) (by decide)]
    unfold ReferenceIdeal.Terms.edgeWeightsOf
    rw [mulf_apply, Cert.VecGather.gather_vec_apply (N := 50000) (E := 850000) ⟨rfl, rfl, rfl, rfl, rfl, rfl, rfl⟩ (by decide),
      Cert.VecGather.gather_vec_apply (N := 50000) (E := 850000) ⟨rfl, rfl, rfl, rfl, rfl, rfl, rfl⟩ (by decide)]
    rfl

end Cert.Bridge

end
-- ==== Proof.BridgeProducts.lean ====
/-
  The two matrix products, entry by entry, over any index vectors and normalisers: each region's output is the
  reference's product of the same layer with row `n` scaled by node `n`'s normaliser — for the second, after the first
  layer's bias and rectifier.
-/
import proofs.«137476_j56418690400424_2_alg».proof.Proof.BridgeLayer
import proofs.«137476_j56418690400424_2_alg».proof.Proof.Blocks0
import proofs.«137476_j56418690400424_2_alg».proof.Proof.LibPlainDot
import proofs.«137476_j56418690400424_2_alg».proof.Proof.LibBroadcast
import Idealize.ShloMosaic.Lib.ValueLayout

set_option maxRecDepth 16384

noncomputable section

open scoped BigOperators

namespace Cert.Bridge

open Cert Idealize.ShloMosaic Idealize.ShloMosaic.ValueIdx

-- the scatters, gathers and products range over 850000 edges and 50000 nodes: they are read through their
-- entry-by-entry lemmas only, never unfolded
attribute [local irreducible] Host.scatterAdd Host.gather Ideal.hostScatterAdd Ideal.matmul

variable (src dst : IVec KernelIdeal.S850000 32) (d : FVec Ideal KernelIdeal.S50000 .f32)
  (hd0 : ∀ n : Fin 50000, 0 ≤ d (ix1 n)) (hdt : ∀ n : Fin 50000, d (ix1 n) ≠ ⊤)

variable (emb : FVec Ideal KernelIdeal.S50000x768 .f32) (w1 : FVec Ideal KernelIdeal.S768x256 .f32)
  (b1 : FVec Ideal KernelIdeal.S256 .f32) (w2 : FVec Ideal KernelIdeal.S256x256 .f32)

/-- The coordinates of a two-coordinate index. -/
theorem ix2_zero {a b : Nat} (p : Fin a) (q : Fin b) : (ix2 p q) 0 = p := rfl
theorem ix2_one {a b : Nat} (p : Fin a) (q : Fin b) : (ix2 p q) 1 = q := rfl

/-- The first region's output is the first product with row `n` scaled by node `n`'s normaliser. -/
theorem first_product (n : Fin 50000) (c : Fin 256) :
    (KernelIdeal.Region0.scaledProduct emb w1
        (shapeCast KernelIdeal.S50000x1 d KernelIdeal.Facts₀.shapeCasts_S50000_S50000x1) (ix2 n c) : EReal)
      = Host.dotGeneral ReferenceIdeal.dot_S50000x768_S768x256_S50000x256_1_0_0_1_n_n none emb w1 (ix2 n c)
        * d (ix1 n) := by
  rw [Cert.PlainDot.dotGeneral_apply (M := 50000) (K := 768) (N := 256) ⟨rfl, rfl, rfl, rfl, rfl, rfl⟩, ← column_of d n]
  unfold KernelIdeal.Region0.scaledProduct
  simp only [ix2_zero, ix2_one]

include hd0 hdt in
/-- The first layer: the kernel's aggregate is the reference's message passing over the first product. -/
theorem layer_one :
    KernelIdeal.Terms.aggregateOf src dst (shapeCast KernelIdeal.S50000x1 d KernelIdeal.Facts₀.shapeCasts_S50000_S50000x1)
        (KernelIdeal.Region0.scaledProduct emb w1
          (shapeCast KernelIdeal.S50000x1 d KernelIdeal.Facts₀.shapeCasts_S50000_S50000x1))
      = ReferenceIdeal.Terms.messagePassOf src dst d
          (Host.dotGeneral ReferenceIdeal.dot_S50000x768_S768x256_S50000x256_1_0_0_1_n_n none emb w1) :=
  aggregateOf_eq src dst d hd0 hdt _ _ (first_product d emb w1)

include hd0 hdt in
/-- The second region's output is the reference's second product with row `n` scaled by node `n`'s normaliser. -/
theorem second_product (n : Fin 50000) (c : Fin 256) :
    (KernelIdeal.Terms.rectifiedProduct
        (KernelIdeal.Terms.aggregateOf src dst (shapeCast KernelIdeal.S50000x1 d KernelIdeal.Facts₀.shapeCasts_S50000_S50000x1)
          (KernelIdeal.Region0.scaledProduct emb w1
            (shapeCast KernelIdeal.S50000x1 d KernelIdeal.Facts₀.shapeCasts_S50000_S50000x1)))
        (shapeCast KernelIdeal.S1x256 b1 KernelIdeal.Facts₀.shapeCasts_S256_S1x256) w2
        (shapeCast KernelIdeal.S50000x1 d KernelIdeal.Facts₀.shapeCasts_S50000_S50000x1) (ix2 n c) : EReal)
      = Host.dotGeneral ReferenceIdeal.dot_S50000x256_S256x256_S50000x256_1_0_0_1_n_n none
          (ReferenceIdeal.Terms.rectified (addf
            (ReferenceIdeal.Terms.messagePassOf src dst d
              (Host.dotGeneral ReferenceIdeal.dot_S50000x768_S768x256_S50000x256_1_0_0_1_n_n none emb w1))
            (ReferenceIdeal.Terms.biasRows b1))) w2 (ix2 n c)
        * d (ix1 n) := by
  rw [Cert.PlainDot.dotGeneral_apply (M := 50000) (K := 256) (N := 256) ⟨rfl, rfl, rfl, rfl, rfl, rfl⟩, ← column_of d n,
    layer_one src dst d hd0 hdt emb w1]
  unfold KernelIdeal.Terms.rectifiedProduct
  simp only [ix2_zero, ix2_one]
  refine congrArg (· * _) (Finset.sum_congr rfl fun k _ => congrArg (· * w2 (ix2 k c)) ?_)
  unfold ReferenceIdeal.Terms.rectified ReferenceIdeal.Terms.biasRows
  rw [maximumf_apply, addf_apply, Cert.Bcast.scalar_apply, constant_apply,
    Cert.Bcast.bias_rows_apply (N := 50000) (C := 256) (by decide), shapeCast_a_1a_apply]

end Cert.Bridge

end
-- ==== Proof.Bridge.lean ====
/-
  The two programs compute one function of their arguments.

  Both build the same index vectors, degrees and normalisers `d`. The kernel's first region leaves rows of `x · W₁`
  scaled by `d`; gathering those, summing into the targets and scaling by `d` again is the reference's message passing
  over `x · W₁` with every edge weighted by `d (src) · d (dst)` (the layer theorem). The kernel's second region adds the
  first bias, rectifies, multiplies by `W₂` and scales by `d`: entry by entry that is the reference's second product
  scaled by `d`, so the layer theorem applies once more. The second bias, the mean over each graph and the final linear
  map are the same operations in both programs.
-/
import proofs.«137476_j56418690400424_2_alg».proof.Proof.BridgeNorm
import proofs.«137476_j56418690400424_2_alg».proof.Proof.BridgeProducts

set_option maxRecDepth 16384

noncomputable section

open scoped BigOperators

namespace Cert.Bridge

open Cert Idealize.ShloMosaic Idealize.ShloMosaic.ValueIdx

-- the scatters, gathers and products range over 850000 edges and 50000 nodes: they are read through their
-- entry-by-entry lemmas only, never unfolded
attribute [local irreducible] Host.scatterAdd Host.gather Ideal.hostScatterAdd Ideal.matmul

variable (ei : IVec KernelIdeal.S2x800000 32)
  (emb : FVec Ideal KernelIdeal.S50000x768 .f32) (w1 : FVec Ideal KernelIdeal.S768x256 .f32)
  (b1 : FVec Ideal KernelIdeal.S256 .f32) (w2 : FVec Ideal KernelIdeal.S256x256 .f32)
  (b2 : FVec Ideal KernelIdeal.S256 .f32) (batch : IVec KernelIdeal.S50000 32)
  (wfc : FVec Ideal KernelIdeal.S256x10 .f32) (bfc : FVec Ideal KernelIdeal.S10 .f32)

/-- Both programs build the same index vectors and the same normalisers. -/
theorem src_eq : ReferenceIdeal.Terms.srcIdx ei = KernelIdeal.Terms.srcIdx ei := rfl
theorem dst_eq : ReferenceIdeal.Terms.dstIdx ei = KernelIdeal.Terms.dstIdx ei := rfl

/-- The reference's normalisers over any target vector are the kernel's selection over the same degree count. -/
theorem normalisersOf_eq (dst : IVec KernelIdeal.S850000 32) :
    ReferenceIdeal.Terms.normalisersOf dst
      = select (cmpf .ogt (ReferenceIdeal.Terms.degreeOf dst)
            (broadcastInDim KernelIdeal.S50000 ![] KernelIdeal.Facts₀.bcast_S_S50000 (constant KernelIdeal.S_ .f32 0x00000000#32)))
          (Host.rsqrt (ReferenceIdeal.Terms.degreeOf dst))
          (broadcastInDim KernelIdeal.S50000 ![] KernelIdeal.Facts₀.bcast_S_S50000
            (id (constant (F := Ideal) KernelIdeal.S_ .f32 0x00000000#32))) := rfl

/-- The reference's normalisers are non-negative and never `+∞`, over any target vector. -/
theorem normalisersOf_nonneg (dst : IVec KernelIdeal.S850000 32) (n : Fin 50000) :
    0 ≤ ReferenceIdeal.Terms.normalisersOf dst (ix1 n) := by
  rw [normalisersOf_eq, normaliser_of]; exact Cert.GcnLaw.normaliser_nonneg _
theorem normalisersOf_ne_top (dst : IVec KernelIdeal.S850000 32) (n : Fin 50000) :
    ReferenceIdeal.Terms.normalisersOf dst (ix1 n) ≠ ⊤ := by
  rw [normalisersOf_eq, normaliser_of]; exact Cert.GcnLaw.normaliser_ne_top _

/-- The kernel's aggregation over its own index vectors and normalisers, with those named by the reference's terms. -/
theorem aggregate_unfold (dst : IVec KernelIdeal.S850000 32) (hdst : KernelIdeal.Terms.dstIdx ei = dst)
    (hs : FVec Ideal KernelIdeal.S50000x256 .bf16) :
    KernelIdeal.Terms.aggregate ei hs
      = KernelIdeal.Terms.aggregateOf (KernelIdeal.Terms.srcIdx ei) dst
          (shapeCast KernelIdeal.S50000x1 (ReferenceIdeal.Terms.normalisersOf dst) KernelIdeal.Facts₀.shapeCasts_S50000_S50000x1) hs := by
  subst hdst; rfl

/-- The pooling and the final linear map are the same operations in both programs. -/
theorem pool_eq (x : FVec Ideal KernelIdeal.S50000x256 .f32) :
    KernelIdeal.Terms.poolAndClassify x batch wfc bfc = ReferenceIdeal.Terms.poolAndClassify x batch wfc bfc := rfl

/-- A bias repeated down the rows is the same operation in both programs. -/
theorem bias_eq (b : FVec Ideal KernelIdeal.S256 .f32) : KernelIdeal.Terms.biasRows b = ReferenceIdeal.Terms.biasRows b := rfl

/-- THE BRIDGE: the kernel's result term is the reference's, for any arrays. -/
theorem results_eq :
    KernelIdeal.Terms.poolAndClassify
        (addf (KernelIdeal.Terms.aggregate ei
          (KernelIdeal.Terms.rectifiedProduct
            (KernelIdeal.Terms.aggregate ei (KernelIdeal.Region0.scaledProduct emb w1 (KernelIdeal.Terms.normaliserColumn ei)))
            (shapeCast KernelIdeal.S1x256 b1 KernelIdeal.Facts₀.shapeCasts_S256_S1x256) w2
            (KernelIdeal.Terms.normaliserColumn ei)))
          (KernelIdeal.Terms.biasRows b2)) batch wfc bfc
      = ReferenceIdeal.Terms.refOutOf (ReferenceIdeal.Terms.srcIdx ei) (ReferenceIdeal.Terms.dstIdx ei) emb w1 b1 w2 b2
          batch wfc bfc := by
  have hcol : KernelIdeal.Terms.normaliserColumn ei
      = shapeCast KernelIdeal.S50000x1 (ReferenceIdeal.Terms.normalisersOf (KernelIdeal.Terms.dstIdx ei))
          KernelIdeal.Facts₀.shapeCasts_S50000_S50000x1 := rfl
  unfold ReferenceIdeal.Terms.refOutOf ReferenceIdeal.Terms.layer2 ReferenceIdeal.Terms.layer1 ReferenceIdeal.Terms.messagePass
  rw [src_eq, dst_eq, hcol, aggregate_unfold ei _ rfl, aggregate_unfold ei _ rfl,
    aggregateOf_eq (KernelIdeal.Terms.srcIdx ei) (KernelIdeal.Terms.dstIdx ei)
      (ReferenceIdeal.Terms.normalisersOf (KernelIdeal.Terms.dstIdx ei)) (normalisersOf_nonneg _) (normalisersOf_ne_top _) _ _
      (second_product (KernelIdeal.Terms.srcIdx ei) (KernelIdeal.Terms.dstIdx ei)
        (ReferenceIdeal.Terms.normalisersOf (KernelIdeal.Terms.dstIdx ei)) (normalisersOf_nonneg _) (normalisersOf_ne_top _)
        emb w1 b1 w2),
    pool_eq, bias_eq]

end Cert.Bridge

end
-- ==== Proof.lean ====
/-
  A two-layer graph convolution with mean pooling and a final linear map, computed two ways.

  The reference multiplies the node features by the layer's weights, gathers the product's rows at the edges'
  sources, weights every gathered row by the product `d (src) · d (dst)` of its ends' normalisers
  (`d = 1/√degree`, zero where the degree is not positive), sums the rows into the edges' targets and adds the bias.
  The kernel computes the two matrix products in two tiled regions whose epilogue scales row `n` by `d n`, gathers and
  sums those pre-scaled rows on the host, and scales the summed row `n` by `d n` afterwards; the first layer's bias and
  rectifier are folded into the second region's prologue. On the extended reals the two agree entry by entry: the
  factor `d (dst)` is the same for every edge landing on a node and, being non-negative and never `+∞`, distributes over
  the sum of that node's messages whatever they are. Changes of float format are the identity there, and the second
  bias, the mean over each graph's nodes and the final linear map are the same operations in both programs. The
  finiteness precondition is not needed for the equation.

  The frames of the two kernel programs are the generated ones; the reference's frame is its run with the result
  dropped. The kernel's result is read off the segment boundaries of its frame (its two regions' output arrays as
  closed functions of the arrays they find), the reference's off the fold of its operations.
-/
import proofs.«137476_j56418690400424_2_alg».proof.Defs
import proofs.«137476_j56418690400424_2_alg».proof.Proof.Gen.Kernel
import proofs.«137476_j56418690400424_2_alg».proof.Proof.Gen.Kernel.Skeleton
import proofs.«137476_j56418690400424_2_alg».proof.Proof.Gen.Kernel.Launch
import proofs.«137476_j56418690400424_2_alg».proof.Proof.Gen.Kernel.Points
import proofs.«137476_j56418690400424_2_alg».proof.Proof.Gen.Kernel.Frame
import proofs.«137476_j56418690400424_2_alg».proof.Proof.Gen.KernelIdeal
import proofs.«137476_j56418690400424_2_alg».proof.Proof.Gen.KernelIdeal.Skeleton
import proofs.«137476_j56418690400424_2_alg».proof.Proof.Gen.KernelIdeal.Launch
import proofs.«137476_j56418690400424_2_alg».proof.Proof.Gen.KernelIdeal.Points
import proofs.«137476_j56418690400424_2_alg».proof.Proof.Gen.KernelIdeal.Frame
import proofs.«137476_j56418690400424_2_alg».proof.Proof.Gen.ReferenceIdeal
import proofs.«137476_j56418690400424_2_alg».proof.Proof.Gen.Pre_finite_inputs
import proofs.«137476_j56418690400424_2_alg».proof.Proof.KernelRun
import proofs.«137476_j56418690400424_2_alg».proof.Proof.KernelValue
import proofs.«137476_j56418690400424_2_alg».proof.Proof.RefRunP
import proofs.«137476_j56418690400424_2_alg».proof.Proof.RefValue
import proofs.«137476_j56418690400424_2_alg».proof.Proof.RefArgs
import proofs.«137476_j56418690400424_2_alg».proof.Proof.Bridge
import Idealize.ShloMosaic.Adequacy
import Idealize.ShloMosaic.Init

set_option maxRecDepth 16384

noncomputable section

namespace Cert.Proof

open Idealize.ShloMosaic Idealize.SL.Sem

/-- The word-level kernel's frame: generated. -/
theorem frame_kernel : Cert.frame_Kernel := fun m ρ _ => Cert.Kernel.Gen.frame m ρ

/-- The idealized kernel's frame: generated. -/
theorem frame_kernelIdeal : Cert.frame_KernelIdeal := fun m ρ _ => Cert.KernelIdeal.Gen.frame m ρ

/-- The reference's frame: its run, every argument buffer read back through the fold of its operations. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.ValueRead.kept_arg0 m c),
     (h c Cert.ReferenceIdeal.main_arg1).trans (Cert.ReferenceIdeal.ValueRead.kept_arg1 m c),
     (h c Cert.ReferenceIdeal.main_arg2).trans (Cert.ReferenceIdeal.ValueRead.kept_arg2 m c),
     (h c Cert.ReferenceIdeal.main_arg3).trans (Cert.ReferenceIdeal.ValueRead.kept_arg3 m c),
     (h c Cert.ReferenceIdeal.main_arg4).trans (Cert.ReferenceIdeal.ValueRead.kept_arg4 m c),
     (h c Cert.ReferenceIdeal.main_arg5).trans (Cert.ReferenceIdeal.ValueRead.kept_arg5 m c),
     (h c Cert.ReferenceIdeal.main_arg6).trans (Cert.ReferenceIdeal.ValueRead.kept_arg6 m c),
     (h c Cert.ReferenceIdeal.main_arg7).trans (Cert.ReferenceIdeal.ValueRead.kept_arg7 m c),
     (h c Cert.ReferenceIdeal.main_arg8).trans (Cert.ReferenceIdeal.ValueRead.kept_arg8 m c)⟩)
    (Cert.ReferenceIdeal.ValueP.run_after (F := Ideal) m ρ)

/-- The ideal pass rewrote no operation: nothing to preserve. -/
theorem preserves : Cert.preserves_Kernel_KernelIdeal := trivial

/-- From memories agreeing on the arguments both idealized programs end with the same result: the kernel's result
    term (read off its segment boundaries) is the reference's (read off its fold) at equal arguments. -/
theorem algebraic : Cert.algebraic_KernelIdeal_ReferenceIdeal := by
  intro m ρ m' ρ' _ hagree
  refine ⟨fun c => Cert.KernelIdeal.ValueRead.kernelOut m c, ?_, ?_⟩
  · exact (θ_run Cert.KernelIdeal.defs _ _).mono
      (fun r h c => ⟨(h c).1.trans (Cert.KernelIdeal.ValueRead.W7_v63 m ρ c), (h c).2⟩)
      (Cert.KernelIdeal.RunRead.run (F := Ideal) m ρ)
  · refine (θ_run Cert.ReferenceIdeal.defs _ _).mono (fun _ h c => ⟨?_,
      (h c Cert.ReferenceIdeal.main_arg0).trans (Cert.ReferenceIdeal.ValueRead.kept_arg0 m' c),
      (h c Cert.ReferenceIdeal.main_arg1).trans (Cert.ReferenceIdeal.ValueRead.kept_arg1 m' c),
      (h c Cert.ReferenceIdeal.main_arg2).trans (Cert.ReferenceIdeal.ValueRead.kept_arg2 m' c),
      (h c Cert.ReferenceIdeal.main_arg3).trans (Cert.ReferenceIdeal.ValueRead.kept_arg3 m' c),
      (h c Cert.ReferenceIdeal.main_arg4).trans (Cert.ReferenceIdeal.ValueRead.kept_arg4 m' c),
      (h c Cert.ReferenceIdeal.main_arg5).trans (Cert.ReferenceIdeal.ValueRead.kept_arg5 m' c),
      (h c Cert.ReferenceIdeal.main_arg6).trans (Cert.ReferenceIdeal.ValueRead.kept_arg6 m' c),
      (h c Cert.ReferenceIdeal.main_arg7).trans (Cert.ReferenceIdeal.ValueRead.kept_arg7 m' c),
      (h c Cert.ReferenceIdeal.main_arg8).trans (Cert.ReferenceIdeal.ValueRead.kept_arg8 m' c)⟩)
      (Cert.ReferenceIdeal.ValueP.run_after (F := Ideal) m' ρ')
    refine (h c Cert.ReferenceIdeal.main_v103).trans ((Cert.ReferenceIdeal.ValueRead.result m' c).trans ?_)
    obtain ⟨a0, a1, a2, a3, a4, a5, a6, a7, a8⟩ := hagree c
    unfold Cert.ReferenceIdeal.ValueRead.refOut
    rw [a0, a1, a2, a3, a4, a5, a6, a7, a8]
    exact (Cert.Bridge.results_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
